-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S2000x512 : Shape := ⟨2, ![2000, 512]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel
  bcast_S_S2000x512 : S_.BroadcastsInDim S2000x512 (![] : Fin 0 → Fin S2000x512.rank)
  reducesTo_S2000x512_S_d0_1 : S2000x512.ReducesTo [0, 1] S_

variable [Facts]

def fn {F : FTy → Type} [FloatOps F] (main_arg0 : FVec F S32x512x32x32 .f32) (main_arg1 : FVec F S2000x512 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  let main_v4 : FVec F S2000x512 .f32 := Host.absf main_arg1
  let main_cst_0 : FVec F S_ .f32 := constant S_ .f32 0x7F800000#32
  let main_v5 : FVec F S2000x512 .f32 := broadcastInDim S2000x512 ![] bcast_S_S2000x512 main_cst_0
  let main_v6 : IVec S2000x512 1 := cmpf .olt main_v4 main_v5
  let main_c_1 : IVec S_ 1 := constantI S_ 1 1#1
  let main_v7 : IVec S_ 1 := (fun x v => Host.reduce IntOp.andi x v reducesTo_S2000x512_S_d0_1 h_S_) main_v6 main_c_1
  let main_v8 : IVec S_ 1 := andi main_v3 main_v7
  main_v8
-- ==== Kernel.lean ====
abbrev S32x512x32x32 : Shape := ⟨4, ![32, 512, 32, 32]⟩
abbrev S2000x512 : Shape := ⟨2, ![2000, 512]⟩
abbrev S32x512x1024 : Shape := ⟨3, ![32, 512, 1024]⟩
abbrev S512x2000 : Shape := ⟨2, ![512, 2000]⟩
abbrev S32x2000x1024 : Shape := ⟨3, ![32, 2000, 1024]⟩
abbrev S1x512x256 : Shape := ⟨3, ![1, 512, 256]⟩
abbrev S1x2000x256 : Shape := ⟨3, ![1, 2000, 256]⟩
abbrev S512x256 : Shape := ⟨2, ![512, 256]⟩
abbrev S2000x256 : Shape := ⟨2, ![2000, 256]⟩
abbrev S256 : Shape := ⟨1, ![256]⟩
abbrev S1x256 : Shape := ⟨2, ![1, 256]⟩
abbrev S32x2000x32x32 : Shape := ⟨4, ![32, 2000, 32, 32]⟩

abbrev nBuf : Space → Nat
  | .hbm => 10
  | .vmem => 8
  | .smem => 0
  | _ => 0

abbrev bufTy : (tb : Table) → Fin (tcTables nBuf tb) → BufTy
  | .hbm, ⟨0, _⟩ => ⟨S32x512x32x32, .f32⟩
  | .hbm, ⟨1, _⟩ => ⟨S2000x512, .f32⟩
  | .hbm, ⟨2, _⟩ => ⟨S32x512x1024, .f32⟩
  | .hbm, ⟨3, _⟩ => ⟨S2000x512, .bf16⟩
  | .hbm, ⟨4, _⟩ => ⟨S512x2000, .f32⟩
  | .hbm, ⟨5, _⟩ => ⟨S512x2000, .bf16⟩
  | .hbm, ⟨6, _⟩ => ⟨S32x512x1024, .f32⟩
  | .hbm, ⟨7, _⟩ => ⟨S32x2000x1024, .f32⟩
  | .hbm, ⟨8, _⟩ => ⟨S32x512x32x32, .f32⟩
  | .hbm, ⟨9, _⟩ => ⟨S32x2000x32x32, .f32⟩
  | .local _ .vmem, ⟨0, _⟩ => ⟨S1x512x256, .f32⟩
  | .local _ .vmem, ⟨1, _⟩ => ⟨S1x512x256, .f32⟩
  | .local _ .vmem, ⟨2, _⟩ => ⟨S2000x512, .bf16⟩
  | .local _ .vmem, ⟨3, _⟩ => ⟨S512x2000, .bf16⟩
  | .local _ .vmem, ⟨4, _⟩ => ⟨S1x512x256, .f32⟩
  | .local _ .vmem, ⟨5, _⟩ => ⟨S1x512x256, .f32⟩
  | .local _ .vmem, ⟨6, _⟩ => ⟨S1x2000x256, .f32⟩
  | .local _ .vmem, ⟨7, _⟩ => ⟨S1x2000x256, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x2000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S32x512x32x32_S32x512x1024 : S32x512x32x32.ShapeCasts S32x512x1024
  bitsLt_bf16_f32 : FTy.bits .bf16 < FTy.bits .f32
  transposes_S2000x512_S512x2000_1_0 : S2000x512.Transposes [1, 0] S512x2000
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  reduces_S2000x256_S256 : S2000x256.Reduces [0] S256
  shapeCasts_S256_S1x256 : S256.ShapeCasts S1x256
  broadcasts_S1x256_S2000x256 : S1x256.Broadcasts S2000x256
  inb_S1x2000x256_S1x2000x256_0_0_0 : ∀ a, (![0, 0, 0] : Fin 3 → Nat) a + S1x2000x256.size a ≤ S1x2000x256.size a
  h_S1x2000x256 : 0 < S1x2000x256.numel
  shapeCasts_S1x2000x256_S2000x256 : S1x2000x256.ShapeCasts S2000x256
  shapeCasts_S2000x256_S1x2000x256 : S2000x256.ShapeCasts S1x2000x256
  inb_S512x2000_S512x2000_0_0 : ∀ a, (![0, 0] : Fin 2 → Nat) a + S512x2000.size a ≤ S512x2000.size a
  h_S512x2000 : 0 < S512x2000.numel
  shapeCasts_S512x2000_S512x2000 : S512x2000.ShapeCasts S512x2000
  shapeCasts_S512x256_S1x512x256 : S512x256.ShapeCasts S1x512x256
  shapeCasts_S32x512x1024_S32x512x32x32 : S32x512x1024.ShapeCasts S32x512x32x32
  shapeCasts_S32x2000x1024_S32x2000x32x32 : S32x2000x1024.ShapeCasts S32x2000x32x32
  dot_S2000x512_S512x256_S2000x256_1_0_0_1_n_n_wf : DotDims.WF S2000x512 S512x256 S2000x256 [1] [0] [0] [1] [] []
  dot_S512x2000_S2000x256_S512x256_1_0_0_1_n_n_wf : DotDims.WF S512x2000 S2000x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S32x512x1024.size a
  hwx0_0 : ∀ i : grid0.Coords, EltTy.bits .f32 = 32 ∨ (Rect.block (s := S32x512x1024) S1x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S2000x512.size a
  hwx0_1 : ∀ i : grid0.Coords, EltTy.bits .bf16 = 32 ∨ (Rect.block (s := S2000x512) S2000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2000.size a ≤ S512x2000.size a
  hwx0_2 : ∀ i : grid0.Coords, EltTy.bits .bf16 = 32 ∨ (Rect.block (s := S512x2000) S512x2000.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S32x512x1024.size a
  hwx0_3 : ∀ i : grid0.Coords, EltTy.bits .f32 = 32 ∨ (Rect.block (s := S32x512x1024) S1x512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2000x256.size a ≤ S32x2000x1024.size a
  hwx0_4 : ∀ i : grid0.Coords, EltTy.bits .f32 = 32 ∨ (Rect.block (s := S32x2000x1024) S1x2000x256.size (cc0_transform_4 i) (hinb0_4 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S512x2000_S2000x256_S512x256_1_0_0_1_n_n : DotDims S512x2000 S2000x256 S512x256 where
  lhsContracting := [1]
  rhsContracting := [0]
  lhsNonContracting := [0]
  rhsNonContracting := [1]
  lhsBatch := []
  rhsBatch := []
  wf := dot_S512x2000_S2000x256_S512x256_1_0_0_1_n_n_wf

abbrev win0_0 : Pipeline.Window sig grid0 :=
  Pipeline.Window.ofSpec (Memref.whole main_v0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x2000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512x32x32 : Shape := ⟨4, ![32, 512, 32, 32]⟩
abbrev S2000x512 : Shape := ⟨2, ![2000, 512]⟩
abbrev S32x32x32x512 : Shape := ⟨4, ![32, 32, 32, 512]⟩
abbrev S32768x512 : Shape := ⟨2, ![32768, 512]⟩
abbrev S512x2000 : Shape := ⟨2, ![512, 2000]⟩
abbrev S32768x2000 : Shape := ⟨2, ![32768, 2000]⟩
abbrev S_ : Shape := ⟨0, ![]⟩
abbrev S32768 : Shape := ⟨1, ![32768]⟩
abbrev S32768x1 : Shape := ⟨2, ![32768, 1]⟩
abbrev S32x32x32x2000 : Shape := ⟨4, ![32, 32, 32, 2000]⟩
abbrev S32x2000x32x32 : Shape := ⟨4, ![32, 2000, 32, 32]⟩

abbrev nBuf : Space → Nat
  | .hbm => 46
  | .vmem => 0
  | .smem => 0
  | _ => 0

abbrev bufTy : (tb : Table) → Fin (tcTables nBuf tb) → BufTy
  | .hbm, ⟨0, _⟩ => ⟨S32x512x32x32, .f32⟩
  | .hbm, ⟨1, _⟩ => ⟨S2000x512, .f32⟩
  | .hbm, ⟨2, _⟩ => ⟨S32x32x32x512, .f32⟩
  | .hbm, ⟨3, _⟩ => ⟨S32768x512, .f32⟩
  | .hbm, ⟨4, _⟩ => ⟨S512x2000, .f32⟩
  | .hbm, ⟨5, _⟩ => ⟨S32768x2000, .f32⟩
  | .hbm, ⟨6, _⟩ => ⟨S_, .f32⟩
  | .hbm, ⟨7, _⟩ => ⟨S32768, .f32⟩
  | .hbm, ⟨8, _⟩ => ⟨S_, .f32⟩
  | .hbm, ⟨9, _⟩ => ⟨S32768, .f32⟩
  | .hbm, ⟨10, _⟩ => ⟨S32768, .f32⟩
  | .hbm, ⟨11, _⟩ => ⟨S32768x1, .f32⟩
  | .hbm, ⟨12, _⟩ => ⟨S32768x2000, .f32⟩
  | .hbm, ⟨13, _⟩ => ⟨S32768x2000, .f32⟩
  | .hbm, ⟨14, _⟩ => ⟨S32768x2000, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S32768x2000, .f32⟩
  | .hbm, ⟨19, _⟩ => ⟨S32768x2000, .f32⟩
  | .hbm, ⟨20, _⟩ => ⟨S_, .f32⟩
  | .hbm, ⟨21, _⟩ => ⟨S32768x2000, .f32⟩
  | .hbm, ⟨22, _⟩ => ⟨S32768x2000, .f32⟩
  | .hbm, ⟨23, _⟩ => ⟨S_, .f32⟩
  | .hbm, ⟨24, _⟩ => ⟨S32768x2000, .f32⟩
  | .hbm, ⟨25, _⟩ => ⟨S32768x2000, .f32⟩
  | .hbm, ⟨26, _⟩ => ⟨S32768x2000, .f32⟩
  | .hbm, ⟨27, _⟩ => ⟨S32768x2000, .f32⟩
  | .hbm, ⟨28, _⟩ => ⟨S_, .f32⟩
  | .hbm, ⟨29, _⟩ => ⟨S32768x2000, .f32⟩
  | .hbm, ⟨30, _⟩ => ⟨S32768x2000, .f32⟩
  | .hbm, ⟨31, _⟩ => ⟨S32768x2000, .f32⟩
  | .hbm, ⟨32, _⟩ => ⟨S32768x2000, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x2000, .f32⟩
  | .hbm, ⟨40, _⟩ => ⟨S32768x2000, .f32⟩
  | .hbm, ⟨41, _⟩ => ⟨S32768x512, .f32⟩
  | .hbm, ⟨42, _⟩ => ⟨S32x32x32x512, .f32⟩
  | .hbm, ⟨43, _⟩ => ⟨S32x512x32x32, .f32⟩
  | .hbm, ⟨44, _⟩ => ⟨S32x32x32x2000, .f32⟩
  | .hbm, ⟨45, _⟩ => ⟨S32x2000x32x32, .f32⟩
  | _, _ => ⟨S32x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  transposes_S32x512x32x32_S32x32x32x512_0_2_3_1 : S32x512x32x32.Transposes [0, 2, 3, 1] S32x32x32x512
  shapeCasts_S32x32x32x512_S32768x512 : S32x32x32x512.ShapeCasts S32768x512
  transposes_S2000x512_S512x2000_1_0 : S2000x512.Transposes [1, 0] S512x2000
  reducesTo_S32768x2000_S32768_d1 : S32768x2000.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x2000_0_1 : S32768x1.BroadcastsInDim S32768x2000 (![0, 1] : Fin 2 → Fin S32768x2000.rank)
  bcast_S_S32768x2000 : S_.BroadcastsInDim S32768x2000 (![] : Fin 0 → Fin S32768x2000.rank)
  bcast_S_S32768x1 : S_.BroadcastsInDim S32768x1 (![] : Fin 0 → Fin S32768x1.rank)
  shapeCasts_S32768x512_S32x32x32x512 : S32768x512.ShapeCasts S32x32x32x512
  transposes_S32x32x32x512_S32x512x32x32_0_3_1_2 : S32x32x32x512.Transposes [0, 3, 1, 2] S32x512x32x32
  shapeCasts_S32768x2000_S32x32x32x2000 : S32768x2000.ShapeCasts S32x32x32x2000
  transposes_S32x32x32x2000_S32x2000x32x32_0_3_1_2 : S32x32x32x2000.Transposes [0, 3, 1, 2] S32x2000x32x32
  dot_S32768x512_S512x2000_S32768x2000_1_0_0_1_n_n_wf : DotDims.WF S32768x512 S512x2000 S32768x2000 [1] [0] [0] [1] [] []
  dot_S32768x2000_S2000x512_S32768x512_1_0_0_1_n_n_wf : DotDims.WF S32768x2000 S2000x512 S32768x512 [1] [0] [0] [1] [] []

variable [Facts₀]

def dot_S32768x512_S512x2000_S32768x2000_1_0_0_1_n_n : DotDims S32768x512 S512x2000 S32768x2000 where
  lhsContracting := [1]
  rhsContracting := [0]
  lhsNonContracting := [0]
  rhsNonContracting := [1]
  lhsBatch := []
  rhsBatch := []
  wf := dot_S32768x512_S512x2000_S32768x2000_1_0_0_1_n_n_wf
def dot_S32768x2000_S2000x512_S32768x512_1_0_0_1_n_n : DotDims S32768x2000 S2000x512 S32768x512 where
  lhsContracting := [1]
  rhsContracting := [0]
  lhsNonContracting := [0]
  rhsNonContracting := [1]
  lhsBatch := []
  rhsBatch := []
  wf := dot_S32768x2000_S2000x512_S32768x512_1_0_0_1_n_n_wf

class Facts : Prop extends Facts₀ where

variable [Facts]
-- ==== Proof.Spec.lean ====
/-
  The memory-read layer, written as plain functions on the extended reals.

  Every token (b, h, v) of the input x : [32, 512, 32, 32] is scored against the 2000 memory rows of w : [2000, 512],
  score k = ∑ c, w (k, c) · x (b, c, h, v).  The 2000 scores are turned into addressing weights in three steps: a
  softmax (exponentials of the scores less their maximum, divided by their sum), a hard shrinkage
  max (a − t) 0 · a / (|a − t| + ε), and a renormalisation by the larger of the sum of absolute values and ε.  The
  layer returns the weights, laid out [32, 2000, 32, 32], and the read-out ∑ k, w (k, c) · weight k, laid out
  [32, 512, 32, 32].  The three literals t, ε and −∞ are kept as the bit patterns of their f32 words, so the same
  word on both sides is never evaluated; |z| is max z (−z).
-/
import Idealize.ShloMosaic.PureOps.Ideal
import Idealize.ShloMosaic.Lib.ValueIdx

noncomputable section

open scoped BigOperators

namespace Cert.MemSpec

open Idealize.ShloMosaic Idealize.ShloMosaic.ValueIdx

/-- The starting value of the maximum: the word of −∞. -/
def bottom : EReal := Ideal.ofBits .f32 0xFF800000#32
/-- The shrinkage threshold t: the f32 word nearest 0.0025. -/
def thr : EReal := Ideal.ofBits .f32 0x3B23D70A#32
/-- The guard ε: the f32 word nearest 1e-12. -/
def eps : EReal := Ideal.ofBits .f32 0x2B8CBCCC#32
/-- The zero word the rectifier compares with. -/
def zeroWord : EReal := Ideal.ofBits .f32 0x00000000#32

/-- The largest of the 2000 scores, folded from −∞. -/
def top (s : Fin 2000 → EReal) : EReal := (Finset.univ : Finset (Fin 2000)).fold max bottom s

/-- The exponential of a score less the largest one. -/
def ex (s : Fin 2000 → EReal) (k : Fin 2000) : EReal := Ideal.exp (s k - top s)

/-- The softmax weight of slot k. -/
def soft (s : Fin 2000 → EReal) (k : Fin 2000) : EReal := Ideal.div (ex s k) (∑ j : Fin 2000, ex s j)

/-- The hard shrinkage of the softmax weight: max (a − t) 0 · a / (|a − t| + ε). -/
def hard (s : Fin 2000 → EReal) (k : Fin 2000) : EReal :=
  Ideal.div (max (soft s k - thr) zeroWord * soft s k) (max (soft s k - thr) (-(soft s k - thr)) + eps)

/-- The sum of the absolute values of the shrunk weights. -/
def mass (s : Fin 2000 → EReal) : EReal := ∑ j : Fin 2000, max (hard s j) (-(hard s j))

/-- The renormalised addressing weight of slot k. -/
def weight (s : Fin 2000 → EReal) (k : Fin 2000) : EReal := Ideal.div (hard s k) (max (mass s) eps)

/-- The score of token (b, h, v) against memory row k. -/
def score (x : (⟨4, ![32, 512, 32, 32]⟩ : Shape).Idx → EReal) (w : (⟨2, ![2000, 512]⟩ : Shape).Idx → EReal)
    (b : Fin 32) (h v : Fin 32) (k : Fin 2000) : EReal :=
  ∑ c : Fin 512, w (ix2 k c) * x (ix4 b c h v)

/-- The addressing weight of token (b, h, v) on slot k. -/
def att (x : (⟨4, ![32, 512, 32, 32]⟩ : Shape).Idx → EReal) (w : (⟨2, ![2000, 512]⟩ : Shape).Idx → EReal)
    (b : Fin 32) (k : Fin 2000) (h v : Fin 32) : EReal :=
  weight (score x w b h v) k

/-- Channel c of the read-out of token (b, h, v). -/
def readout (x : (⟨4, ![32, 512, 32, 32]⟩ : Shape).Idx → EReal) (w : (⟨2, ![2000, 512]⟩ : Shape).Idx → EReal)
    (b : Fin 32) (c : Fin 512) (h v : Fin 32) : EReal :=
  ∑ k : Fin 2000, w (ix2 k c) * weight (score x w b h v) k

/-- The weights as one array [32, 2000, 32, 32]. -/
def A (x : (⟨4, ![32, 512, 32, 32]⟩ : Shape).Idx → EReal) (w : (⟨2, ![2000, 512]⟩ : Shape).Idx → EReal) :
    (⟨4, ![32, 2000, 32, 32]⟩ : Shape).Idx → EReal :=
  fun i => att x w (i 0) (i 1) (i 2) (i 3)

/-- The read-out as one array [32, 512, 32, 32]. -/
def Y (x : (⟨4, ![32, 512, 32, 32]⟩ : Shape).Idx → EReal) (w : (⟨2, ![2000, 512]⟩ : Shape).Idx → EReal) :
    (⟨4, ![32, 512, 32, 32]⟩ : Shape).Idx → EReal :=
  fun i => readout x w (i 0) (i 1) (i 2) (i 3)

theorem A_ix4 (x : (⟨4, ![32, 512, 32, 32]⟩ : Shape).Idx → EReal) (w : (⟨2, ![2000, 512]⟩ : Shape).Idx → EReal)
    (b : Fin 32) (k : Fin 2000) (h v : Fin 32) : A x w (ix4 b k h v) = att x w b k h v := rfl

theorem Y_ix4 (x : (⟨4, ![32, 512, 32, 32]⟩ : Shape).Idx → EReal) (w : (⟨2, ![2000, 512]⟩ : Shape).Idx → EReal)
    (b : Fin 32) (c : Fin 512) (h v : Fin 32) : Y x w (ix4 b c h v) = readout x w b c h v := rfl

end Cert.MemSpec

end
-- ==== Proof.KernArrSpec.lean ====
/-
  The two results as the region leaves them, before the last reshape: the 32 × 32 tokens of a batch entry laid out
  along one axis of length 1024, token (h, v) at position 32 · h + v.  Position p therefore carries the token
  (p / 32, p % 32).
-/
import proofs.«146242_j78572131713360_1_alg».proof.KernelIdeal
import proofs.«146242_j78572131713360_1_alg».proof.Proof.Spec

noncomputable section

namespace Cert.MemArr

open Idealize.ShloMosaic Cert.KernelIdeal

/-- The addressing weights with the tokens along one axis: entry (b, k, p) is the weight of token (b, p / 32, p % 32)
    on slot k. -/
def attFlat (x : S32x512x32x32.Idx → EReal) (w : S2000x512.Idx → EReal) : S32x2000x1024.Idx → EReal :=
  fun i => Cert.MemSpec.att x w ⟨(i 0).val, (i 0).isLt⟩ ⟨(i 1).val, (i 1).isLt⟩
    ⟨(i 2).val / 32, by have h : (i 2).val < 1024 := (i 2).isLt; omega⟩
    ⟨(i 2).val % 32, Nat.mod_lt _ (by decide)⟩

/-- The read-out with the tokens along one axis: entry (b, c, p) is channel c of the read-out of token
    (b, p / 32, p % 32). -/
def readFlat (x : S32x512x32x32.Idx → EReal) (w : S2000x512.Idx → EReal) : S32x512x1024.Idx → EReal :=
  fun i => Cert.MemSpec.readout x w ⟨(i 0).val, (i 0).isLt⟩ ⟨(i 1).val, (i 1).isLt⟩
    ⟨(i 2).val / 32, by have h : (i 2).val < 1024 := (i 2).isLt; omega⟩
    ⟨(i 2).val % 32, Nat.mod_lt _ (by decide)⟩

end Cert.MemArr

end
-- ==== Proof.LibSplitLast.lean ====
/-
  A three-axis array whose last axis is split in two, read at an entry.

  An array [a, b, n] with n = c · d reshaped to [a, b, c, d] reads at (p, q, r, s) the entry (p, q, r · d + s): both
  indices have the same position in row-major order.  The extents are variables.
-/
import Idealize.ShloMosaic.Lib.ValueIdx
import Idealize.ShloMosaic.Lib.Pipeline.Value

namespace Cert.SplitLast

open Idealize.ShloMosaic Idealize.ShloMosaic.ValueIdx

variable {α : Type}

/-- The last axis of [a, b, n], n = c · d, split into [c, d]: at (p, q, r, s) the entry (p, q, k) with k = r · d + s. -/
theorem split_last_apply {a b c d n : ℕ} (x : (⟨3, ![a, b, n]⟩ : Shape).Idx → α)
    (h : (⟨3, ![a, b, n]⟩ : Shape).ShapeCasts ⟨4, ![a, b, c, d]⟩) (p : Fin a) (q : Fin b) (r : Fin c) (s : Fin d)
    (k : Fin n) (hk : k.val = r.val * d + s.val) (hn : n = c * d) :
    shapeCast ⟨4, ![a, b, c, d]⟩ x h (ix4 p q r s) = x (ix3 p q k) :=
  shapeCast_apply x h _ _ (by
    rw [Shape.rowMajor_val_three, Shape.rowMajor_val_four]
    show (p.val * b + q.val) * n + k.val = ((p.val * b + q.val) * c + r.val) * d + s.val
    rw [hk, hn]
    ring)

end Cert.SplitLast
-- ==== Proof.KernHost.lean ====
/-
  From the two arrays the region leaves to the program's two results.

  After the region the program reshapes its two output arrays, [32, 512, 1024] to [32, 512, 32, 32] and
  [32, 2000, 1024] to [32, 2000, 32, 32]: the 1024 token positions of a batch entry become the 32 × 32 grid, position
  32 · h + v going to (h, v).  The arrays the region leaves carry token (p / 32, p % 32) at position p, so the reshaped
  arrays are the specification's read-out and weights.
-/
import proofs.«146242_j78572131713360_1_alg».proof.Proof.Gen.KernelIdeal.Frame
import proofs.«146242_j78572131713360_1_alg».proof.Proof.KernArrSpec
import proofs.«146242_j78572131713360_1_alg».proof.Proof.LibSplitLast
import Idealize.ShloMosaic.Lib.StableHlo.Run
import Idealize.ShloMosaic.PureOps.Ideal

noncomputable section

namespace Cert.MemKern

open Idealize.ShloMosaic Idealize.ShloMosaic.TcCoe Idealize.ShloMosaic.ValueIdx Idealize.SL.Sem Cert.KernelIdeal Cert.KernelIdeal.Gen
open Idealize.ShloMosaic.StableHlo Cert.MemSpec Cert.MemArr

variable (m : (ℓ : Loc nD τ sig) → Buf (Elt Ideal) ℓ)

/-- The first result after the lines that follow the region: the reshape of the read-out array the region leaves. -/
theorem tail_v5 (c : Dev nD) :
    Pipeline.afterTail₀ cfgs (dats m) 0 (V0 m) [hostOps1] c main_v5
      = shapeCast S32x512x32x32 ((dats m 0 c).arrAt 3 cfg0.N) shapeCasts_S32x512x1024_S32x512x32x32 := by
  unfold Pipeline.afterTail₀
  show StableHlo.after hostOps1 _ (Proc.devRef .tc main_v5) = _
  after_results
  have e := Pipeline.withArrays_arr (nD := nD) (τ := τ) spec0 launch0.win.arr_inj c (V0 m c) (fun w => (dats m 0 c).arrAt w cfg0.N) 3
  funext i
  rw [show Pipeline.withArrays (cfgs 0).spec c (V0 m c) (fun w => (dats m 0 c).arrAt w (cfgs 0).N) (Proc.devRef .tc main_v4_0) = (dats m 0 c).arrAt 3 cfg0.N from e]
  rfl

/-- The second result after the lines that follow the region: the reshape of the weights array the region leaves. -/
theorem tail_v6 (c : Dev nD) :
    Pipeline.afterTail₀ cfgs (dats m) 0 (V0 m) [hostOps1] c main_v6
      = shapeCast S32x2000x32x32 ((dats m 0 c).arrAt 4 cfg0.N) shapeCasts_S32x2000x1024_S32x2000x32x32 := by
  unfold Pipeline.afterTail₀
  show StableHlo.after hostOps1 _ (Proc.devRef .tc main_v6) = _
  after_results
  have e := Pipeline.withArrays_arr (nD := nD) (τ := τ) spec0 launch0.win.arr_inj c (V0 m c) (fun w => (dats m 0 c).arrAt w cfg0.N) 4
  funext i
  rw [show Pipeline.withArrays (cfgs 0).spec c (V0 m c) (fun w => (dats m 0 c).arrAt w (cfgs 0).N) (Proc.devRef .tc main_v4_1) = (dats m 0 c).arrAt 4 cfg0.N from e]
  rfl

/-- Position 32 · h + v of the token axis carries token (h, v). -/
theorem token_div (h v : Fin 32) : (h.val * 32 + v.val) / 32 = h.val := by have := v.isLt; omega
theorem token_mod (h v : Fin 32) : (h.val * 32 + v.val) % 32 = v.val := by have := v.isLt; omega

/-- The read-out array, its token axis split into the 32 × 32 grid, is the specification's read-out. -/
theorem reshaped_readout (x : S32x512x32x32.Idx → EReal) (w : S2000x512.Idx → EReal) :
    shapeCast S32x512x32x32 (readFlat x w) shapeCasts_S32x512x1024_S32x512x32x32 = Y x w := by
  funext i
  obtain ⟨b, c, h, v, rfl⟩ : ∃ (b : Fin 32) (c : Fin 512) (h v : Fin 32), i = ix4 b c h v := ⟨i 0, i 1, i 2, i 3, eq_ix4 i⟩
  rw [Y_ix4]
  refine (Cert.SplitLast.split_last_apply (readFlat x w) shapeCasts_S32x512x1024_S32x512x32x32 b c h v
    ⟨h.val * 32 + v.val, by have := h.isLt; have := v.isLt; omega⟩ rfl rfl).trans ?_
  show readout x w b c ⟨(h.val * 32 + v.val) / 32, _⟩ ⟨(h.val * 32 + v.val) % 32, _⟩ = readout x w b c h v
  exact congrArg₂ (readout x w b c) (Fin.ext (token_div h v)) (Fin.ext (token_mod h v))

/-- The weights array, its token axis split into the 32 × 32 grid, is the specification's weights. -/
theorem reshaped_weights (x : S32x512x32x32.Idx → EReal) (w : S2000x512.Idx → EReal) :
    shapeCast S32x2000x32x32 (attFlat x w) shapeCasts_S32x2000x1024_S32x2000x32x32 = A x w := by
  funext i
  obtain ⟨b, k, h, v, rfl⟩ : ∃ (b : Fin 32) (k : Fin 2000) (h v : Fin 32), i = ix4 b k h v := ⟨i 0, i 1, i 2, i 3, eq_ix4 i⟩
  rw [A_ix4]
  refine (Cert.SplitLast.split_last_apply (attFlat x w) shapeCasts_S32x2000x1024_S32x2000x32x32 b k h v
    ⟨h.val * 32 + v.val, by have := h.isLt; have := v.isLt; omega⟩ rfl rfl).trans ?_
  show att x w b k ⟨(h.val * 32 + v.val) / 32, _⟩ ⟨(h.val * 32 + v.val) % 32, _⟩ = att x w b k h v
  exact congrArg₂ (att x w b k) (Fin.ext (token_div h v)) (Fin.ext (token_mod h v))

/-- The kernel program's run with both results named: given what the two arrays hold when the region ends, the
    first result is the specification's read-out and the second its weights, of the argument arrays, which end
    unchanged. -/
theorem kernel_run_of (ρ : Dev nD → PrngReg)
    (hW : ∀ c : Dev nD, (dats m 0 c).arrAt 4 cfg0.N = attFlat (m ((c : Thread nD τ).loc main_arg0)) (m ((c : Thread nD τ).loc main_arg1)))
    (hR : ∀ c : Dev nD, (dats m 0 c).arrAt 3 cfg0.N = readFlat (m ((c : Thread nD τ).loc main_arg0)) (m ((c : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v5) = Y (m ((c.tc : Thread nD τ).loc main_arg0)) (m ((c.tc : Thread nD τ).loc main_arg1))
      ∧ r.2.mem ((c.tc : Thread nD τ).loc main_v6) = A (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 (Pipeline.mem_restRefs_of main_v5 (by decide) (by decide))).trans
        ((tail_v5 m c).trans (by rw [hR c]; exact reshaped_readout _ _)),
      ((h c).2 main_v6 (Pipeline.mem_restRefs_of main_v6 (by decide) (by decide))).trans
        ((tail_v6 m c).trans (by rw [hW c]; exact reshaped_weights _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main (F := Ideal) m ρ)

end Cert.MemKern

end
-- ==== Proof.LibScatterConst.lean ====
/-
  Two general facts about array operations, free of any particular program.

  A scatter that overwrites with one constant.  A scatter whose body returns the update, and whose update values are all
  one constant c, is a left fold of overwrites by c over the update indices.  Because every overwrite writes the same
  value, neither the order of the updates nor how many of them share a target matters: at an operand index i' the
  result is c when some update index lands at i', and the operand's element when none does.  This is proved first for a
  fold over any list of steps that each overwrite at most one index with c (foldl_overwrite_const), then for the
  scatter (scatter_const_apply).

  A maximum over a finite set.  The fold of the maximum from a starting value b over a finite family is at least
  every member (le_fold_of_mem), and is b or one of the members (fold_eq_init_or_mem); and the reduction by maximum over
  the second axis of a two-axis array of extended reals is, at row p, that fold over the row's entries
  (hostReduce_max_rows).
-/
import Idealize.ShloMosaic.PureOps.ShapeOps
import Idealize.ShloMosaic.PureOps.Reduce
import Idealize.ShloMosaic.PureOps.Ideal.Laws
import Idealize.ShloMosaic.Lib.ValueIdx

noncomputable section

namespace Cert.ScatterConst

open Idealize.ShloMosaic Idealize.ShloMosaic.ValueIdx

/-- Overwriting by one constant, folded over a list of steps. Step `k` has a target `R k` (or none): with a target `i` it
    makes the function `c` at `i` and leaves it alone elsewhere, with no target it leaves it alone everywhere. After the
    whole list the function is, at `i'`, either `c`, and then some step of the list targeted `i'`, or what it was at the
    start, and then no step of the list targeted `i'`. No order of the steps matters: every overwrite writes the same
    value. -/
theorem foldl_overwrite_const {ι κ α : Type} (R : κ → Option ι) (c : α) (step : (ι → α) → κ → ι → α)
    (h_hit : ∀ r k i, R k = some i → step r k i = c)
    (h_miss : ∀ r k i i', R k = some i → i' ≠ i → step r k i' = r i')
    (h_none : ∀ r k, R k = none → step r k = r) (i' : ι) :
    ∀ (l : List κ) (x : ι → α),
      (l.foldl step x i' = c ∧ ∃ k ∈ l, R k = some i') ∨ (l.foldl step x i' = x i' ∧ ∀ k ∈ l, R k ≠ some i')
  | [], x => Or.inr ⟨rfl, fun k hk => absurd hk (List.not_mem_nil)⟩
  | k :: l, x => by
    rw [List.foldl_cons]
    rcases foldl_overwrite_const R c step h_hit h_miss h_none i' l (step x k) with ⟨h1, n, hn, hR⟩ | ⟨h1, h2⟩
    · exact Or.inl ⟨h1, n, List.mem_cons_of_mem _ hn, hR⟩
    · rw [h1]
      cases hk : R k with
      | none =>
        rw [h_none x k hk]
        refine Or.inr ⟨rfl, fun n hn => ?_⟩
        rcases List.mem_cons.1 hn with rfl | hn
        · rw [hk]; exact (Option.some_ne_none i').symm
        · exact h2 n hn
      | some i =>
        by_cases hi : i' = i
        · subst hi
          exact Or.inl ⟨h_hit x k _ hk, k, List.mem_cons_self, hk⟩
        · refine Or.inr ⟨h_miss x k i i' hk hi, fun n hn => ?_⟩
          rcases List.mem_cons.1 hn with rfl | hn
          · rw [hk]; intro e; exact hi (Option.some.inj e).symm
          · exact h2 n hn

/-- A scatter whose body returns the update, with every update value the same `c`: at `i'` the result is `c`, and
    then some update index lands at `i'`, or it is the operand's element, and then no update index lands at `i'`. -/
theorem scatter_const_apply {s si u : Shape} {α : Type} {w : Nat} (d : ScatterDims s si u) (x : s.Idx → α) (idx : IVec si w)
    (upd : u.Idx → α) (c : α) (hupd : ∀ j, upd j = c) (i' : s.Idx) :
    (Host.scatter d (fun _ b => b) x idx upd i' = c
        ∧ ∃ n ∈ List.finRange u.numel, d.resultIdx? (u.rowMajor.symm n) idx = some i')
      ∨ (Host.scatter d (fun _ b => b) x idx upd i' = x i'
        ∧ ∀ n ∈ List.finRange u.numel, d.resultIdx? (u.rowMajor.symm n) idx ≠ some i') := by
  unfold Host.scatter
  refine foldl_overwrite_const (fun n => d.resultIdx? (u.rowMajor.symm n) idx) c _ ?_ ?_ ?_ i' _ x
  · intro r k i hk
    beta_reduce at hk ⊢
    rw [hk]
    dsimp only
    rw [if_pos rfl]
    exact hupd _
  · intro r k i i'' hk hi
    beta_reduce at hk ⊢
    rw [hk]
    dsimp only
    rw [if_neg hi]
  · intro r k hk
    beta_reduce at hk ⊢
    rw [hk]

/-- A fold of the maximum over a finite set, from `b`, is at least every folded value. -/
theorem le_fold_of_mem {ι β : Type} [DecidableEq ι] [LinearOrder β] (op : β → β → β) [Std.Commutative op] [Std.Associative op]
    (hop : ∀ x y, op x y = max x y) (b : β) (f : ι → β) (s : Finset ι) :
    ∀ x ∈ s, f x ≤ s.fold op b f := by
  induction s using Finset.induction_on with
  | empty => intro x hx; simp at hx
  | insert a s ha ih =>
    intro x hx
    rw [Finset.fold_insert ha, hop]
    rcases Finset.mem_insert.1 hx with rfl | hx
    · exact le_max_left _ _
    · exact (ih x hx).trans (le_max_right _ _)

/-- A fold of the maximum over a finite set, from `b`, is `b` or one of the folded values. -/
theorem fold_eq_init_or_mem {ι β : Type} [DecidableEq ι] [LinearOrder β] (op : β → β → β) [Std.Commutative op] [Std.Associative op]
    (hop : ∀ x y, op x y = max x y) (b : β) (f : ι → β) (s : Finset ι) :
    s.fold op b f = b ∨ ∃ x ∈ s, s.fold op b f = f x := by
  induction s using Finset.induction_on with
  | empty => left; simp
  | insert a s ha ih =>
    rw [Finset.fold_insert ha, hop]
    rcases max_choice (f a) (s.fold op b f) with h | h
    · right; exact ⟨a, Finset.mem_insert_self _ _, h⟩
    · rw [h]
      rcases ih with ih | ⟨x, hx, ih⟩
      · left; exact ih
      · right; exact ⟨x, Finset.mem_insert_of_mem hx, ih⟩

/-- The maximum over the second axis of an [a, n] array of extended reals, from the starting value's element: at row
    `p` it is the fold of the maximum over the columns `q` of the entries `(p, q)`. -/
theorem hostReduce_max_rows {a n : ℕ} {φ : FTy} {u : Shape} (y : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := φ)) y init h' hu (ix1 p)
      = (Finset.univ : Finset (Fin n)).fold (FloatOps.maximumf (F := Ideal) (φ := φ)) (init (Shape.Idx.first hu))
          (fun q => y (ix2 p q)) := by
  rw [Host.reduce_eq_fold_single (s := ⟨2, ![a, n]⟩) (t := ⟨1, ![a]⟩) (a := (1 : Fin 2))
    (FloatOps.maximumf (F := Ideal) (φ := φ)) y init h' h hu (ix1 p)]
  refine Finset.fold_congr fun k _ => ?_
  rw [Function.comp_apply]
  exact congrArg y (funext fun ax => Fin.ext (by match ax with | ⟨0, _⟩ => rfl | ⟨1, _⟩ => rfl))

end Cert.ScatterConst

end
-- ==== Proof.RefRow.lean ====
/-
  One row of the reference's score matrix, carried through its forty operations.

  The reference flattens the tokens (b, h, v) into 32768 rows and scores each row against the 2000 memory slots.
  Every operation between the scores and the renormalised weights acts inside one row: a maximum over the row, the
  exponentials of the scores less that maximum, their sum, the quotient, the shrinkage, the sum of absolute values,
  the renormalisation.  So for a fixed row n, writing s k for the score of row n against slot k, each stage at (n, k)
  is the matching function of the specification at s and k.  This module proves that, stage by stage, for every row.
-/
import proofs.«146242_j78572131713360_1_alg».proof.Proof.Gen.ReferenceIdeal.Read
import proofs.«146242_j78572131713360_1_alg».proof.Proof.Spec
import proofs.«146242_j78572131713360_1_alg».proof.Proof.LibScatterConst

noncomputable section

open scoped BigOperators

namespace Cert.MemRef

open Cert.ReferenceIdeal Cert.ReferenceIdeal.Gen Cert.ReferenceIdeal.Read Idealize.ShloMosaic Idealize.ShloMosaic.ValueIdx
open Cert.MemSpec

/-- The scores of row n against the 2000 slots. -/
def row (x0 : (⟨S32x512x32x32, .f32⟩ : BufTy).Contents (Elt Ideal)) (x1 : (⟨S2000x512, .f32⟩ : BufTy).Contents (Elt Ideal))
    (n : Fin 32768) : Fin 2000 → EReal :=
  fun k => val_main_v3 (F := Ideal) x0 x1 (ix2 n k)

/-! ## Index equations inside one row -/

/-- Column k of row n, with the column forgotten and then the unit column forgotten, is row n. -/
theorem idx_v7_v8 (n : Fin 32768) (k : Fin 2000) : idx_main_v7 (idx_main_v8 (ix2 n k)) = ix1 n :=
  funext fun a => by match a with | ⟨0, _⟩ => rfl

theorem idx_v12_v13 (n : Fin 32768) (k : Fin 2000) : idx_main_v12 (idx_main_v13 (ix2 n k)) = ix1 n :=
  funext fun a => by match a with | ⟨0, _⟩ => rfl

theorem idx_v25_v28 (n : Fin 32768) (k : Fin 2000) : idx_main_v25 (idx_main_v28 (ix2 n k)) = ix1 n :=
  funext fun a => by match a with | ⟨0, _⟩ => rfl

/-- The k-th summand of row n's sum sits at (n, k). -/
theorem idx_v11 (n : Fin 32768) (k : Fin 2000) : idx_main_v11 (ix1 n) k = ix2 n k :=
  funext fun a => by match a with | ⟨0, _⟩ => rfl | ⟨1, _⟩ => rfl

theorem idx_v24 (n : Fin 32768) (k : Fin 2000) : idx_main_v24 (ix1 n) k = ix2 n k :=
  funext fun a => by match a with | ⟨0, _⟩ => rfl | ⟨1, _⟩ => rfl

variable (x0 : (⟨S32x512x32x32, .f32⟩ : BufTy).Contents (Elt Ideal)) (x1 : (⟨S2000x512, .f32⟩ : BufTy).Contents (Elt Ideal))
variable (n : Fin 32768) (k : Fin 2000)

/-! ## The maximum of the row -/

/-- The reduction by maximum from −∞ over the slots, at row n, is the fold of the maximum over the row's scores. -/
theorem v4_row : val_main_v4 (F := Ideal) x0 x1 (ix1 n) = (Finset.univ : Finset (Fin 2000)).fold max bottom (row x0 x1 n) := by
  unfold val_main_v4
  refine (Cert.ScatterConst.hostReduce_max_rows (a := 32768) (n := 2000) (φ := .f32) (u := S_) (val_main_v3 (F := Ideal) x0 x1)
    (val_main_cst (F := Ideal)) reducesTo_S32768x2000_S32768_d1 (by decide) h_S_ n).trans ?_
  rfl

/-- A further maximum with −∞ changes nothing: the fold already starts from −∞. -/
theorem v6_row : val_main_v6 (F := Ideal) x0 x1 (ix1 n) = top (row x0 x1 n) := by
  rw [val_main_v6_apply, val_main_v5_apply, val_main_cst_0_apply, v4_row]
  show max bottom ((Finset.univ : Finset (Fin 2000)).fold max bottom (row x0 x1 n)) = _
  exact max_eq_right ((Finset.le_fold_max _).mpr (Or.inl le_rfl))

theorem v8_row : val_main_v8 (F := Ideal) x0 x1 (ix2 n k) = top (row x0 x1 n) := by
  rw [val_main_v8_apply, val_main_v7_apply, idx_v7_v8, v6_row]

/-! ## The softmax of the row -/

theorem v10_row : val_main_v10 (F := Ideal) x0 x1 (ix2 n k) = ex (row x0 x1 n) k := by
  rw [val_main_v10_apply, val_main_v9_apply, v8_row]
  rfl

theorem v11_row : val_main_v11 (F := Ideal) x0 x1 (ix1 n) = ∑ j : Fin 2000, ex (row x0 x1 n) j := by
  rw [val_main_v11_apply, val_main_cst_1_apply, Ideal.ofBits_def, Ideal.ofBits_zero_f32, zero_add]
  refine Finset.sum_congr rfl fun j _ => ?_
  rw [idx_v11, v10_row]

theorem v13_row : val_main_v13 (F := Ideal) x0 x1 (ix2 n k) = ∑ j : Fin 2000, ex (row x0 x1 n) j := by
  rw [val_main_v13_apply, val_main_v12_apply, idx_v12_v13, v11_row]

theorem v14_row : val_main_v14 (F := Ideal) x0 x1 (ix2 n k) = soft (row x0 x1 n) k := by
  rw [val_main_v14_apply, v10_row, v13_row]
  rfl

/-! ## The shrinkage -/

theorem v16_row : val_main_v16 (F := Ideal) x0 x1 (ix2 n k) = soft (row x0 x1 n) k - thr := by
  rw [val_main_v16_apply, v14_row, val_main_v15_apply, val_main_cst_2_apply]
  rfl

theorem v18_row : val_main_v18 (F := Ideal) x0 x1 (ix2 n k)
    = max (soft (row x0 x1 n) k - thr) zeroWord * soft (row x0 x1 n) k := by
  rw [val_main_v18_apply, val_main_v17_apply, v16_row, v14_row, val_main_call0_v0_apply, val_main_call0_cst_apply]
  rfl

theorem v21_row : val_main_v21 (F := Ideal) x0 x1 (ix2 n k)
    = max (soft (row x0 x1 n) k - thr) (-(soft (row x0 x1 n) k - thr)) + eps := by
  rw [val_main_v21_apply, val_main_v19_apply, v16_row, val_main_v20_apply, val_main_cst_3_apply]
  rfl

theorem v22_row : val_main_v22 (F := Ideal) x0 x1 (ix2 n k) = hard (row x0 x1 n) k := by
  rw [val_main_v22_apply, v18_row, v21_row]
  rfl

/-! ## The renormalisation -/

theorem v24_row : val_main_v24 (F := Ideal) x0 x1 (ix1 n) = mass (row x0 x1 n) := by
  rw [val_main_v24_apply, val_main_cst_4_apply, Ideal.ofBits_def, Ideal.ofBits_zero_f32, zero_add]
  refine Finset.sum_congr rfl fun j _ => ?_
  rw [idx_v24, val_main_v23_apply, v22_row]
  rfl

theorem v28_row : val_main_v28 (F := Ideal) x0 x1 (ix2 n k) = max (mass (row x0 x1 n)) eps := by
  rw [val_main_v28_apply, val_main_v27_apply, val_main_v25_apply, idx_v25_v28, v24_row, val_main_v26_apply,
    val_main_cst_5_apply]
  rfl

/-- The renormalised weight of row n on slot k is the specification's weight of the row's scores. -/
theorem v29_row : val_main_v29 (F := Ideal) x0 x1 (ix2 n k) = weight (row x0 x1 n) k := by
  rw [val_main_v29_apply, v22_row, v28_row]
  rfl

end Cert.MemRef

end
-- ==== Proof.RefTok.lean ====
/-
  Tokens as rows.

  The reference moves the channel axis of x last and flattens the token (b, h, v) into the row (b · 32 + h) · 32 + v
  of a [32768, 512] matrix; at the end it splits the rows back into (b, h, v) and moves the last axis second.  This
  module names that row, identifies the composed index functions of those layout operations at the indices built from
  coordinates, and reads off the score row: row (b · 32 + h) · 32 + v of the reference's score matrix is the
  specification's score of token (b, h, v).  A product of two extended reals is read in either order.
-/
import proofs.«146242_j78572131713360_1_alg».proof.Proof.RefRow

noncomputable section

open scoped BigOperators

namespace Cert.MemRef

open Cert.ReferenceIdeal Cert.ReferenceIdeal.Gen Cert.ReferenceIdeal.Read Idealize.ShloMosaic Idealize.ShloMosaic.ValueIdx
open Cert.MemSpec

/-- The row of token (b, h, v). -/
def tok (b h v : Fin 32) : Fin 32768 :=
  ⟨(b.val * 32 + h.val) * 32 + v.val, by have := b.isLt; have := h.isLt; have := v.isLt; omega⟩

theorem tok_val (b h v : Fin 32) : (tok b h v).val = (b.val * 32 + h.val) * 32 + v.val := rfl

/-! ## Index equations -/

/-- Entry (row of (b, h, v), c) of the flattened, channel-last x is x at (b, c, h, v). -/
theorem idx_x (b h v : Fin 32) (k : Fin 2000) (c : Fin 512) :
    idx_main_v0 (idx_main_v1 (lidx_main_v3 (ix2 (tok b h v) k) c)) = ix4 b c h v :=
  funext fun a => Fin.ext (by
    have hb := b.isLt; have hh := h.isLt; have hv := v.isLt; have hc := c.isLt
    match a with
    | ⟨0, _⟩ => show (((b.val * 32 + h.val) * 32 + v.val) * 512 + c.val) / 524288 = b.val; omega
    | ⟨1, _⟩ => show (((b.val * 32 + h.val) * 32 + v.val) * 512 + c.val) % 512 = c.val; omega
    | ⟨2, _⟩ => show (((b.val * 32 + h.val) * 32 + v.val) * 512 + c.val) / 16384 % 32 = h.val; omega
    | ⟨3, _⟩ => show (((b.val * 32 + h.val) * 32 + v.val) * 512 + c.val) / 512 % 32 = v.val; omega)

/-- Entry (c, k) of the transposed w is w at (k, c). -/
theorem idx_w (n : Fin 32768) (k : Fin 2000) (c : Fin 512) : idx_main_v2 (ridx_main_v3 (ix2 n k) c) = ix2 k c :=
  funext fun a => by match a with | ⟨0, _⟩ => rfl | ⟨1, _⟩ => rfl

/-- The read-out's entry (b, c, h, v) comes from entry (row of (b, h, v), c) of the flat read-out. -/
theorem idx_y (b : Fin 32) (c : Fin 512) (h v : Fin 32) : idx_main_v31 (idx_main_v32 (ix4 b c h v)) = ix2 (tok b h v) c :=
  funext fun a => Fin.ext (by
    have hb := b.isLt; have hh := h.isLt; have hv := v.isLt; have hc := c.isLt
    match a with
    | ⟨0, _⟩ => show (((b.val * 32 + h.val) * 32 + v.val) * 512 + c.val) / 512 = (b.val * 32 + h.val) * 32 + v.val; omega
    | ⟨1, _⟩ => show (((b.val * 32 + h.val) * 32 + v.val) * 512 + c.val) % 512 = c.val; omega)

/-- The weights' entry (b, k, h, v) comes from entry (row of (b, h, v), k) of the flat weights. -/
theorem idx_a (b : Fin 32) (k : Fin 2000) (h v : Fin 32) : idx_main_v33 (idx_main_v34 (ix4 b k h v)) = ix2 (tok b h v) k :=
  funext fun a => Fin.ext (by
    have hb := b.isLt; have hh := h.isLt; have hv := v.isLt; have hk := k.isLt
    match a with
    | ⟨0, _⟩ => show (((b.val * 32 + h.val) * 32 + v.val) * 2000 + k.val) / 2000 = (b.val * 32 + h.val) * 32 + v.val; omega
    | ⟨1, _⟩ => show (((b.val * 32 + h.val) * 32 + v.val) * 2000 + k.val) % 2000 = k.val; omega)

/-- The k-th term of the read-out's sum takes the weight at (n, k) … -/
theorem idx_l30 (n : Fin 32768) (c : Fin 512) (k : Fin 2000) : lidx_main_v30 (ix2 n c) k = ix2 n k :=
  funext fun a => by match a with | ⟨0, _⟩ => rfl | ⟨1, _⟩ => rfl

/-- … and w at (k, c). -/
theorem idx_r30 (n : Fin 32768) (c : Fin 512) (k : Fin 2000) : ridx_main_v30 (ix2 n c) k = ix2 k c :=
  funext fun a => by match a with | ⟨0, _⟩ => rfl | ⟨1, _⟩ => rfl

variable (x0 : (⟨S32x512x32x32, .f32⟩ : BufTy).Contents (Elt Ideal)) (x1 : (⟨S2000x512, .f32⟩ : BufTy).Contents (Elt Ideal))

/-- The score row of token (b, h, v) is the specification's score. -/
theorem row_tok (b h v : Fin 32) : row x0 x1 (tok b h v) = score x0 x1 b h v := by
  funext k
  show val_main_v3 (F := Ideal) x0 x1 (ix2 (tok b h v) k) = ∑ c : Fin 512, x1 (ix2 k c) * x0 (ix4 b c h v)
  rw [val_main_v3_apply]
  refine Finset.sum_congr rfl fun c _ => ?_
  rw [val_main_v1_apply, val_main_v0_apply, val_main_v2_apply, idx_x, idx_w, mul_comm]

/-- The flat weights at (row of (b, h, v), k). -/
theorem v29_tok (b h v : Fin 32) (k : Fin 2000) :
    val_main_v29 (F := Ideal) x0 x1 (ix2 (tok b h v) k) = weight (score x0 x1 b h v) k := by
  rw [v29_row, row_tok]

/-- The flat read-out at (row of (b, h, v), c). -/
theorem v30_tok (b h v : Fin 32) (c : Fin 512) :
    val_main_v30 (F := Ideal) x0 x1 (ix2 (tok b h v) c) = ∑ k : Fin 2000, x1 (ix2 k c) * weight (score x0 x1 b h v) k := by
  rw [val_main_v30_apply]
  refine Finset.sum_congr rfl fun k _ => ?_
  rw [idx_l30, idx_r30, v29_tok, mul_comm]

end Cert.MemRef

end
-- ==== Proof.RefSide.lean ====
/-
  The reference's two results are the specification's two arrays.

  Entry (b, c, h, v) of the first result is the flat read-out at the row of token (b, h, v) and channel c; entry
  (b, k, h, v) of the second is the flat weight at that row and slot k.
-/
import proofs.«146242_j78572131713360_1_alg».proof.Proof.RefTok

noncomputable section

open scoped BigOperators

namespace Cert.MemRef

open Cert.ReferenceIdeal Cert.ReferenceIdeal.Gen Cert.ReferenceIdeal.Read Idealize.ShloMosaic Idealize.ShloMosaic.ValueIdx
open Cert.MemSpec

/-- The reference's first result is the read-out. -/
theorem ref_readout (x0 : (⟨Cert.ReferenceIdeal.S32x512x32x32, .f32⟩ : BufTy).Contents (Elt Ideal))
    (x1 : (⟨Cert.ReferenceIdeal.S2000x512, .f32⟩ : BufTy).Contents (Elt Ideal)) :
    Cert.ReferenceIdeal.Read.val_main_v32 (F := Ideal) x0 x1 = Cert.MemSpec.Y x0 x1 := by
  funext i
  obtain ⟨b, c, h, v, rfl⟩ : ∃ (b : Fin 32) (c : Fin 512) (h v : Fin 32), i = ix4 b c h v := ⟨i 0, i 1, i 2, i 3, eq_ix4 i⟩
  rw [val_main_v32_apply, val_main_v31_apply, idx_y, v30_tok]
  rfl

/-- The reference's second result is the weights. -/
theorem ref_weights (x0 : (⟨Cert.ReferenceIdeal.S32x512x32x32, .f32⟩ : BufTy).Contents (Elt Ideal))
    (x1 : (⟨Cert.ReferenceIdeal.S2000x512, .f32⟩ : BufTy).Contents (Elt Ideal)) :
    Cert.ReferenceIdeal.Read.val_main_v34 (F := Ideal) x0 x1 = Cert.MemSpec.A x0 x1 := by
  funext i
  obtain ⟨b, k, h, v, rfl⟩ : ∃ (b : Fin 32) (k : Fin 2000) (h v : Fin 32), i = ix4 b k h v := ⟨i 0, i 1, i 2, i 3, eq_ix4 i⟩
  rw [val_main_v34_apply, val_main_v33_apply, idx_a, v29_tok]
  rfl

end Cert.MemRef

end
-- ==== Proof.KernArrIn.lean ====
/-
  The three arrays the region reads, as it finds them, each read at an entry, and each window's block at a grid point
  read off its array.

  The tokens x : [32, 512, 32, 32] reach the region reshaped to [32, 512, 1024], so entry (b, c, p) is
  x (b, c, p / 32, p % 32); the memory w : [2000, 512] reaches it once as it is and once transposed, [512, 2000],
  entry (c, k) being w (k, c).  The narrowing of w to the shorter float type changes no value here.

  The grid has 32 · 4 points; point t stands for batch entry t / 4 and token quarter t % 4.  The tokens' block at t
  is [1, 512, 256] at block index (t / 4, 0, t % 4), so its entry (0, c, n) is the array's (t / 4, c, (t % 4) · 256 + n);
  both forms of the memory are one block, the whole array, at every point.
-/
import proofs.«146242_j78572131713360_1_alg».proof.Proof.Gen.KernelIdeal.Frame
import proofs.«146242_j78572131713360_1_alg».proof.Proof.KernArrSpec
import Idealize.ShloMosaic.Lib.Pipeline.Value
import Idealize.ShloMosaic.Lib.ValueLayout
import Idealize.ShloMosaic.Lib.ValueIdx
import Idealize.ShloMosaic.Lib.Tactic

noncomputable section

open scoped BigOperators

namespace Cert.MemArr

open Idealize.ShloMosaic Idealize.ShloMosaic.TcCoe Idealize.ShloMosaic.ValueIdx Idealize.ShloMosaic.Tactic Idealize.SL.Sem
open Cert.KernelIdeal Cert.KernelIdeal.Gen
open Idealize.ShloMosaic.Pipeline (Dat)

variable (m : (ℓ : Loc nD τ sig) → Buf (Elt Ideal) ℓ)

/-! ## The arrays -/

/-- The first operand is the tokens reshaped. -/
theorem tokens_eq (c : Dev nD) :
    (V m c main_v0 : S32x512x1024.Idx → EReal)
      = shapeCast S32x512x1024 (m ((c : Thread nD τ).loc main_arg0)) shapeCasts_S32x512x32x32_S32x512x1024 := by
  show StableHlo.after hostOps0 (fun b => m (c, b)) (Proc.devRef .tc main_v0) = _
  after_results
  rfl

/-- The second operand is the memory, narrowed. -/
theorem memory_eq (c : Dev nD) :
    V m c main_v1 = ((truncf (F := Ideal) (s := S2000x512) (φ := .f32) .bf16 · bitsLt_bf16_f32) : (⟨S2000x512, .f32⟩ : BufTy).Contents (Elt Ideal) → (⟨S2000x512, .bf16⟩ : BufTy).Contents (Elt Ideal))
      (m ((c : Thread nD τ).loc main_arg1)) := by
  show StableHlo.after hostOps0 (fun b => m (c, b)) (Proc.devRef .tc main_v1) = _
  after_results <;> rfl

/-- The third operand is the memory transposed, narrowed. -/
theorem memoryT_eq (c : Dev nD) :
    V m c main_v3 = ((truncf (F := Ideal) (s := S512x2000) (φ := .f32) .bf16 · bitsLt_bf16_f32) : (⟨S512x2000, .f32⟩ : BufTy).Contents (Elt Ideal) → (⟨S512x2000, .bf16⟩ : BufTy).Contents (Elt Ideal))
      (((transpose S512x2000 [1, 0] · transposes_S2000x512_S512x2000_1_0) : (⟨S2000x512, .f32⟩ : BufTy).Contents (Elt Ideal) → (⟨S512x2000, .f32⟩ : BufTy).Contents (Elt Ideal))
        (m ((c : Thread nD τ).loc main_arg1))) := by
  show StableHlo.after hostOps0 (fun b => m (c, b)) (Proc.devRef .tc main_v3) = _
  after_results <;> rfl

/-- Entry (b, c, p) of the reshaped tokens is x (b, c, p / 32, p % 32): the two have the same row-major position. -/
theorem tokens_apply (c : Dev nD) (i : S32x512x1024.Idx) (k : S32x512x32x32.Idx)
    (h0 : (k 0).val = (i 0).val) (h1 : (k 1).val = (i 1).val) (h2 : (k 2).val = (i 2).val / 32) (h3 : (k 3).val = (i 2).val % 32) :
    (V m c main_v0 : S32x512x1024.Idx → EReal) i = (m ((c : Thread nD τ).loc main_arg0) : S32x512x32x32.Idx → EReal) k := by
  refine (congrFun (tokens_eq m c) i).trans (shapeCast_apply _ _ i k ?_)
  rw [Shape.rowMajor_val_four, Shape.rowMajor_val_three]
  show (((k 0).val * 512 + (k 1).val) * 32 + (k 2).val) * 32 + (k 3).val = ((i 0).val * 512 + (i 1).val) * 1024 + (i 2).val
  omega

/-- Entry (k, c) of the narrowed memory is w (k, c). -/
theorem memory_apply (c : Dev nD) (i : S2000x512.Idx) :
    (V m c main_v1 : S2000x512.Idx → EReal) i = (m ((c : Thread nD τ).loc main_arg1) : S2000x512.Idx → EReal) i :=
  congrFun (memory_eq m c) i

/-- Entry (c, k) of the transposed memory is w (k, c). -/
theorem memoryT_apply (c : Dev nD) (cc : Fin 512) (k : Fin 2000) :
    (V m c main_v3 : S512x2000.Idx → EReal) (ix2 cc k) = (m ((c : Thread nD τ).loc main_arg1) : S2000x512.Idx → EReal) (ix2 k cc) :=
  (congrFun (memoryT_eq m c) (ix2 cc k)).trans
    (transpose_ix2_apply (m ((c : Thread nD τ).loc main_arg1) : S2000x512.Idx → EReal) transposes_S2000x512_S512x2000_1_0 cc k)

/-! ## The blocks -/

/-- The printed index maps over the grid: the tokens' window and the two results' windows sit at block
    (t / 4, 0, t % 4); the two windows on the memory stay at block (0, 0). -/
theorem index_facts : ∀ t : Fin cfg0.N,
    win0_0.index t (0 : Fin 3) = t.val / 4 ∧ win0_0.index t (1 : Fin 3) = 0 ∧ win0_0.index t (2 : Fin 3) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = 0 ∧ win0_3.index t (2 : Fin 3) = t.val % 4
    ∧ win0_4.index t (0 : Fin 3) = t.val / 4 ∧ win0_4.index t (1 : Fin 3) = 0 ∧ win0_4.index t (2 : Fin 3) = t.val % 4 :=
  (by decide +kernel : ∀ t : Fin grid0.N, _)

/-- The tokens' block at point t: entry y is the array's (t / 4, y 1, (t % 4) · 256 + y 2). -/
theorem tokens_block (c : Dev nD) (t : Fin cfg0.N) (y : S1x512x256.Idx) (k : S32x512x1024.Idx)
    (h0 : (k 0).val = t.val / 4) (h1 : (k 1).val = (y 1).val) (h2 : (k 2).val = t.val % 4 * 256 + (y 2).val) :
    (iblk m c 0 t : Vec Ideal S1x512x256 .f32) y = (V m c main_v0 : S32x512x1024.Idx → EReal) k := by
  obtain ⟨e0, e1, e2, -⟩ := index_facts t
  unfold iblk
  rw [View.read_apply]
  show V m c main_v0 (((cfg0.win 0).blk t).view.emb y) = V m c main_v0 k
  refine congrArg (V m c main_v0) ?_
  funext a
  apply Fin.ext
  match a with
  | ⟨0, _⟩ => show win0_0.index t (0 : Fin 3) * 1 + 1 * (y 0).val = (k 0).val; have hy : (y 0).val < 1 := (y 0).isLt; omega
  | ⟨1, _⟩ => show win0_0.index t (1 : Fin 3) * 512 + 1 * (y 1).val = (k 1).val; omega
  | ⟨2, _⟩ => show win0_0.index t (2 : Fin 3) * 256 + 1 * (y 2).val = (k 2).val; omega

/-- The memory's block at any point is the memory. -/
theorem memory_block (c : Dev nD) (t : Fin cfg0.N) (y : S2000x512.Idx) :
    (iblk m c 1 t : Vec Ideal S2000x512 .bf16) y = (V m c main_v1 : S2000x512.Idx → EReal) y := by
  obtain ⟨-, -, -, e0, e1, -⟩ := index_facts t
  unfold iblk
  rw [View.read_apply]
  show V m c main_v1 (((cfg0.win 1).blk t).view.emb y) = V m c main_v1 y
  refine congrArg (V m c main_v1) ?_
  funext a
  apply Fin.ext
  match a with
  | ⟨0, _⟩ => show win0_1.index t (0 : Fin 2) * 2000 + 1 * (y 0).val = (y 0).val; omega
  | ⟨1, _⟩ => show win0_1.index t (1 : Fin 2) * 512 + 1 * (y 1).val = (y 1).val; omega

/-- The transposed memory's block at any point is the transposed memory. -/
theorem memoryT_block (c : Dev nD) (t : Fin cfg0.N) (y : S512x2000.Idx) :
    (iblk m c 2 t : Vec Ideal S512x2000 .bf16) y = (V m c main_v3 : S512x2000.Idx → EReal) y := by
  obtain ⟨-, -, -, -, -, e0, e1, -⟩ := index_facts t
  unfold iblk
  rw [View.read_apply]
  show V m c main_v3 (((cfg0.win 2).blk t).view.emb y) = V m c main_v3 y
  refine congrArg (V m c main_v3) ?_
  funext a
  apply Fin.ext
  match a with
  | ⟨0, _⟩ => show win0_2.index t (0 : Fin 2) * 512 + 1 * (y 0).val = (y 0).val; omega
  | ⟨1, _⟩ => show win0_2.index t (1 : Fin 2) * 2000 + 1 * (y 1).val = (y 1).val; omega

end Cert.MemArr

end
-- ==== Proof.LibCutRepeat.lean ====
/-
  Readings at an entry for the shapes a tile of pairwise products meets.

  Column k of an [a, n] array, cut out as [a, 1] and repeated along the columns, reads at (p, q) the entry (p, k); row
  k of an [n, b] array, cut out as [1, b] and repeated along the rows, reads at (p, q) the entry (k, q).  The sum over
  the FIRST axis of an [n, b] array of extended reals is at column q the sum over d of the entries (d, q).  A
  [1, 1, n] array and a vector of n values are read through each other at (0, 0, m) and m.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.CutRepeat

open Idealize.ShloMosaic Idealize.ShloMosaic.ValueIdx

/-! ## Layout readings at an entry (p, q) -/

section Layout
variable {α : Type}

/-- Column k of an [a, n] array, cut out as [a, 1] and repeated along b columns: at (p, q) it is the entry (p, k). -/
theorem column_cut_repeated_apply {a n b : ℕ} (o : ℕ) (X : (⟨2, ![a, n]⟩ : Shape).Idx → α)
    (h : (⟨2, ![a, n]⟩ : Shape).Slices ![0, o] ⟨2, ![a, 1]⟩)
    (hb : (⟨2, ![a, 1]⟩ : Shape).Broadcasts ⟨2, ![a, b]⟩) (p : Fin a) (q : Fin b) (k : Fin n) (hk : k.val = o) :
    broadcastTo ⟨2, ![a, b]⟩ (extractStridedSlice ⟨2, ![a, 1]⟩ ![0, o] X h) hb (ix2 p q) = X (ix2 p k) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact slice2_axis1_apply o X h p (0 : Fin 1) k (by rw [hk]; rfl)

/-- Row k of an [n, b] array, cut out as [1, b] and repeated along a rows: at (p, q) it is the entry (k, q). -/
theorem row_cut_repeated_apply {a n b : ℕ} (o : ℕ) (X : (⟨2, ![n, b]⟩ : Shape).Idx → α)
    (h : (⟨2, ![n, b]⟩ : Shape).Slices ![o, 0] ⟨2, ![1, b]⟩)
    (hb : (⟨2, ![1, b]⟩ : Shape).Broadcasts ⟨2, ![a, b]⟩) (p : Fin a) (q : Fin b) (k : Fin n) (hk : k.val = o) :
    broadcastTo ⟨2, ![a, b]⟩ (extractStridedSlice ⟨2, ![1, b]⟩ ![o, 0] X h) hb (ix2 p q) = X (ix2 k q) :=
  (broadcastTo_1b_ab_apply _ hb p q).trans (slice2_axis0_apply o X h (0 : Fin 1) q k (by rw [hk]; rfl))

end Layout

/-- The sum over the first axis of an [n, b] array of extended reals: at column q the sum over d of the entries (d, q). -/
theorem sum_over_rows_apply {n b : ℕ} (src : FVec Ideal ⟨2, ![n, b]⟩ .f32)
    (h : (⟨2, ![n, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ d : Fin n, src (ix2 d q) :=
  (Ideal.multiReduction_add_single src 0x00000000#32 h hφ hacc (ix1 q)).trans
    (Finset.sum_congr rfl fun d _ => congrArg src (funext fun ax => Fin.ext (by
      match ax with
      | ⟨0, _⟩ => rfl
      | ⟨1, _⟩ => rfl)))

/-! ## The vector of 4096 values and its [1, 1, 4096] form -/

section Flat
variable {α : Type}

/-- A [1, 1, n] array read as a vector of n values: at m it is the entry (0, 0, m). -/
theorem flat_apply {n : ℕ} (x : (⟨3, ![1, 1, n]⟩ : Shape).Idx → α)
    (h : (⟨3, ![1, 1, n]⟩ : Shape).ShapeCasts ⟨1, ![n]⟩) (m : Fin n) :
    shapeCast ⟨1, ![n]⟩ x h (ix1 m) = x (ix3 (0 : Fin 1) (0 : Fin 1) m) :=
  shapeCast_apply x h _ _ (by
    rw [Shape.rowMajor_val_three, Shape.rowMajor_val_one]
    show (0 * 1 + 0) * n + m.val = m.val
    omega)

/-- A vector of n values read as a [1, 1, n] array: at (0, 0, m) it is the value at m. -/
theorem unflat_apply {n : ℕ} (x : (⟨1, ![n]⟩ : Shape).Idx → α)
    (h : (⟨1, ![n]⟩ : Shape).ShapeCasts ⟨3, ![1, 1, n]⟩) (m : Fin n) :
    shapeCast ⟨3, ![1, 1, n]⟩ x h (ix3 (0 : Fin 1) (0 : Fin 1) m) = x (ix1 m) :=
  shapeCast_apply x h _ _ (by
    rw [Shape.rowMajor_val_three, Shape.rowMajor_val_one]
    show m.val = (0 * 1 + 0) * n + m.val
    omega)

end Flat

end Cert.CutRepeat

end
-- ==== Proof.LibColumnKeep.lean ====
/-
  Reductions over the FIRST axis of an [n, b] array whose result is kept as a row, read on the extended reals.

  The maximum over the first axis, taken from -∞ (the pattern 0xFF800000), is at column q the fold of `max` from -∞
  over the n entries (d, q) of that column.  A vector of b values kept as a row [1, b] and repeated along n rows reads
  at (p, q) the value at q: this is how a column-wise maximum or sum is subtracted from, or divides, every row.
-/
import Idealize.ShloMosaic.Lib.ValueIdx
import Idealize.ShloMosaic.Lib.ValueLayout
import Idealize.ShloMosaic.Lib.Pipeline.Value
import Idealize.ShloMosaic.PureOps.Ideal.Laws

noncomputable section

namespace Cert.ColumnKeep

open Idealize.ShloMosaic Idealize.ShloMosaic.ValueIdx

/-- The maximum over the first axis of an [n, b] array of extended reals, taken from -∞: at column `q` the fold of
    `max` from -∞ over the entries (d, q). -/
theorem max_over_rows_apply {n b : ℕ} (src : FVec Ideal ⟨2, ![n, b]⟩ .f32)
    (h : (⟨2, ![n, b]⟩ : Shape).Reduces [0] ⟨1, ![b]⟩) (hφ : FKind.Formats .f32)
    (hacc : (0xFF800000#32 : BitVec 32) = 0xFF800000#32) (q : Fin b) :
    multiReduction .maximumf [0] ⟨1, ![b]⟩ src 0xFF800000#32 h hφ hacc (ix1 q)
      = (Finset.univ : Finset (Fin n)).fold max (Ideal.ofBits .f32 0xFF800000#32) (fun d => src (ix2 d q)) :=
  (Ideal.multiReduction_maximumf_single src 0xFF800000#32 h hφ hacc (ix1 q)).trans
    (Finset.fold_congr fun d _ => congrArg src (funext fun ax => Fin.ext (by
      match ax with
      | ⟨0, _⟩ => rfl
      | ⟨1, _⟩ => rfl)))

/-- A vector of b values kept as a row [1, b] and repeated along a rows: at (p, q) it is the value at q. -/
theorem row_kept_repeated_apply {α : Type} {a b : ℕ} (u : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ u h1) h2 (ix2 p q) = u (ix1 q) :=
  (broadcastTo_1b_ab_apply _ h2 p q).trans (shapeCast_a_1a_apply u h1 (0 : Fin 1) q)

end Cert.ColumnKeep

end
-- ==== Proof.KernTail.lean ====
/-
  The kernel's arithmetic after the score matrix, read at an entry.

  In a block the scores form a [2000, 256] array sc: row k is the memory slot, column n the token.  Everything the
  body then does works column by column: the maximum and the two sums run over the 2000 rows of a column, are kept as
  a row [1, 256] and repeated down the rows.  So the value at (k, n) is the addressing weight of slot k computed from
  the 2000 scores of column n — the specification's `weight` of that column.
-/
import proofs.«146242_j78572131713360_1_alg».proof.Proof.Gen.KernelIdeal.Skeleton
import proofs.«146242_j78572131713360_1_alg».proof.Proof.Spec
import proofs.«146242_j78572131713360_1_alg».proof.Proof.LibCutRepeat
import proofs.«146242_j78572131713360_1_alg».proof.Proof.LibColumnKeep

noncomputable section

open scoped BigOperators

namespace Cert.MemKern

open Idealize.ShloMosaic Idealize.ShloMosaic.ValueIdx Cert.KernelIdeal Cert.KernelIdeal.Gen Cert.MemSpec

/-- Column n of a [2000, 256] array, as the 2000 values down its rows. -/
def col (sc : FVec Ideal S2000x256 .f32) (n : Fin 256) : Fin 2000 → EReal := fun k => sc (ix2 k n)

/-- The exponentials of the scores less their column's maximum. -/
def expPart (sc : FVec Ideal S2000x256 .f32) : FVec Ideal S2000x256 .f32 :=
  exp (subf sc (broadcastTo S2000x256 (shapeCast S1x256
    (multiReduction .maximumf [0] S256 sc 0xFF800000#32 reduces_S2000x256_S256 (.inl rfl) rfl)
    shapeCasts_S256_S1x256) broadcasts_S1x256_S2000x256))

/-- The softmax weights: each exponential over its column's sum. -/
def softPart (sc : FVec Ideal S2000x256 .f32) : FVec Ideal S2000x256 .f32 :=
  divf (expPart sc) (broadcastTo S2000x256 (shapeCast S1x256
    (multiReduction .add [0] S256 (expPart sc) 0x00000000#32 reduces_S2000x256_S256 (.inl rfl) rfl)
    shapeCasts_S256_S1x256) broadcasts_S1x256_S2000x256)

/-- The shrunk weights max (a − t) 0 · a / (|a − t| + ε). -/
def hardPart (sc : FVec Ideal S2000x256 .f32) : FVec Ideal S2000x256 .f32 :=
  divf (mulf (maximumf (subf (softPart sc) (broadcast S2000x256 (Scalar.ofBits .f32 0x3B23D70A#32)))
      (broadcast S2000x256 (Scalar.ofBits .f32 0x00000000#32))) (softPart sc))
    (addf (absf (subf (softPart sc) (broadcast S2000x256 (Scalar.ofBits .f32 0x3B23D70A#32))))
      (broadcast S2000x256 (Scalar.ofBits .f32 0x2B8CBCCC#32)))

/-- The renormalised weights: each shrunk weight over the larger of its column's absolute sum and ε. -/
def weightPart (sc : FVec Ideal S2000x256 .f32) : FVec Ideal S2000x256 .f32 :=
  divf (hardPart sc) (broadcastTo S2000x256 (maximumf (shapeCast S1x256
    (multiReduction .add [0] S256 (absf (hardPart sc)) 0x00000000#32 reduces_S2000x256_S256 (.inl rfl) rfl)
    shapeCasts_S256_S1x256) (broadcast S1x256 (Scalar.ofBits .f32 0x2B8CBCCC#32))) broadcasts_S1x256_S2000x256)

theorem expPart_apply (sc : FVec Ideal S2000x256 .f32) (k : Fin 2000) (n : Fin 256) :
    expPart sc (ix2 k n) = ex (col sc n) k := by
  show Ideal.exp (sc (ix2 k n) - broadcastTo S2000x256 (shapeCast S1x256
    (multiReduction .maximumf [0] S256 sc 0xFF800000#32 reduces_S2000x256_S256 (.inl rfl) rfl)
    shapeCasts_S256_S1x256) broadcasts_S1x256_S2000x256 (ix2 k n)) = _
  rw [Cert.ColumnKeep.row_kept_repeated_apply, Cert.ColumnKeep.max_over_rows_apply]
  rfl

theorem softPart_apply (sc : FVec Ideal S2000x256 .f32) (k : Fin 2000) (n : Fin 256) :
    softPart sc (ix2 k n) = soft (col sc n) k := by
  show Ideal.div (expPart sc (ix2 k n)) (broadcastTo S2000x256 (shapeCast S1x256
    (multiReduction .add [0] S256 (expPart sc) 0x00000000#32 reduces_S2000x256_S256 (.inl rfl) rfl)
    shapeCasts_S256_S1x256) broadcasts_S1x256_S2000x256 (ix2 k n)) = _
  rw [Cert.ColumnKeep.row_kept_repeated_apply, Cert.CutRepeat.sum_over_rows_apply, expPart_apply]
  unfold soft
  exact congrArg _ (Finset.sum_congr rfl fun j _ => expPart_apply sc j n)

theorem hardPart_apply (sc : FVec Ideal S2000x256 .f32) (k : Fin 2000) (n : Fin 256) :
    hardPart sc (ix2 k n) = hard (col sc n) k := by
  unfold hard
  rw [← softPart_apply sc k n]
  rfl

theorem weightPart_apply (sc : FVec Ideal S2000x256 .f32) (k : Fin 2000) (n : Fin 256) :
    weightPart sc (ix2 k n) = weight (col sc n) k := by
  show Ideal.div (hardPart sc (ix2 k n)) (broadcastTo S2000x256 (maximumf (shapeCast S1x256
    (multiReduction .add [0] S256 (absf (hardPart sc)) 0x00000000#32 reduces_S2000x256_S256 (.inl rfl) rfl)
    shapeCasts_S256_S1x256) (broadcast S1x256 (Scalar.ofBits .f32 0x2B8CBCCC#32))) broadcasts_S1x256_S2000x256 (ix2 k n)) = _
  rw [broadcastTo_1b_ab_apply]
  show Ideal.div (hardPart sc (ix2 k n)) (max (shapeCast S1x256
    (multiReduction .add [0] S256 (absf (hardPart sc)) 0x00000000#32 reduces_S2000x256_S256 (.inl rfl) rfl)
    shapeCasts_S256_S1x256 (ix2 (0 : Fin 1) n)) eps) = _
  rw [shapeCast_a_1a_apply, Cert.CutRepeat.sum_over_rows_apply, hardPart_apply]
  unfold weight mass
  refine congrArg (fun z => Ideal.div (hard (col sc n) k) (max z eps)) (Finset.sum_congr rfl fun j _ => ?_)
  show max (hardPart sc (ix2 j n)) (-(hardPart sc (ix2 j n))) = _
  rw [hardPart_apply]

end Cert.MemKern

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.KernPay.lean ====
/-
  What the body leaves in its two output buffers, read at an entry.

  The body forms the score matrix of the block — the memory [2000, 512] times the block's [512, 256] slab, so entry
  (k, n) is the score of memory row k against the block's column n —, turns every column into addressing weights,
  stores them, and multiplies the transposed memory [512, 2000] with the weights [2000, 256] for the read-out.  Both
  products start from the zero array, so each entry is a plain sum over the contracted axis; a change of float format
  is the identity on the extended reals.
-/
import proofs.«146242_j78572131713360_1_alg».proof.Proof.Gen.KernelIdeal.Frame
import proofs.«146242_j78572131713360_1_alg».proof.Proof.KernTail
import proofs.«146242_j78572131713360_1_alg».proof.Proof.LibPlainMatmul

noncomputable section

open scoped BigOperators

namespace Cert.MemKern

open Idealize.ShloMosaic Idealize.ShloMosaic.ValueIdx Cert.KernelIdeal Cert.KernelIdeal.Gen Cert.MemSpec

/-- The 2000 scores of column n of a block: row k of the memory against the block's column n. -/
def colScore (X : Vec Ideal S1x512x256 .f32) (W : Vec Ideal S2000x512 .bf16) (n : Fin 256) : Fin 2000 → EReal :=
  fun k => ∑ c : Fin 512, W (ix2 k c) * X (ix3 (0 : Fin 1) c n)

/-- The block's score matrix: the memory times the block's slab, from the zero array. -/
def scores (X : Vec Ideal S1x512x256 .f32) (W : Vec Ideal S2000x512 .bf16) : FVec Ideal S2000x256 .f32 :=
  matmul dot_S2000x512_S512x256_S2000x256_1_0_0_1_n_n none
    (shapeCast S2000x512 W shapeCasts_S2000x512_S2000x512 : FVec Ideal S2000x512 .bf16)
    (truncf .bf16 (shapeCast S512x256 X shapeCasts_S1x512x256_S512x256 : FVec Ideal S512x256 .f32) bitsLt_bf16_f32)
    (constant S2000x256 .f32 0x00000000#32)

/-- Entry (k, n) of the score matrix is column n's score against memory row k. -/
theorem scores_apply (X : Vec Ideal S1x512x256 .f32) (W : Vec Ideal S2000x512 .bf16) (k : Fin 2000) (n : Fin 256) :
    scores X W (ix2 k n) = colScore X W n k := by
  unfold scores colScore
  refine (Cert.PlainMatmul.zero_acc_apply dot_S2000x512_S512x256_S2000x256_1_0_0_1_n_n_wf none _ _ k n).trans ?_
  refine Finset.sum_congr rfl fun c _ => ?_
  rw [shapeCast_self, truncf_apply, shapeCast_1ab_ab_apply]

/-- The weights the body computes are the column-wise chain applied to the score matrix. -/
theorem pay2_eq (X : Vec Ideal S1x512x256 .f32) (W : Vec Ideal S2000x512 .bf16) :
    k0_pay2 (F := Ideal) X W = weightPart (scores X W) := rfl

/-- Entry (k, n) of the computed weights: the addressing weight of slot k from column n's scores. -/
theorem pay2_apply (X : Vec Ideal S1x512x256 .f32) (W : Vec Ideal S2000x512 .bf16) (k : Fin 2000) (n : Fin 256) :
    k0_pay2 (F := Ideal) X W (ix2 k n) = weight (colScore X W n) k := by
  rw [pay2_eq, weightPart_apply]
  exact congrArg (fun s => weight s k) (funext fun k' => scores_apply X W k' n)

theorem zero3 : (![0, 0, 0] : Fin 3 → Nat) = fun _ => 0 := funext fun a => by fin_cases a <;> rfl
theorem zero2 : (![0, 0] : Fin 2 → Nat) = fun _ => 0 := funext fun a => by fin_cases a <;> rfl

/-- The weights' buffer after the body: at (0, k, n) the addressing weight of slot k from column n's scores. -/
theorem out4_apply (X : Vec Ideal S1x512x256 .f32) (W : Vec Ideal S2000x512 .bf16) (WT : Vec Ideal S512x2000 .bf16)
    (k : Fin 2000) (n : Fin 256) :
    out0_4 (F := Ideal) X W WT (ix3 (0 : Fin 1) k n) = weight (colScore X W n) k := by
  unfold out0_4
  rw [View.canon_unit_zero zero3]
  simp only [View.ld_unit_zero (S := S1x512x256) zero3, View.ld_unit_zero (S := S2000x512) zero2]
  show (shapeCast S1x2000x256 (k0_pay2 X W) shapeCasts_S2000x256_S1x2000x256 : FVec Ideal S1x2000x256 .f32) (ix3 (0 : Fin 1) k n) = _
  rw [shapeCast_ab_1ab_apply, pay2_apply]

/-- The read-out's buffer after the body: at (0, c, n) the sum over the slots of the transposed memory's (c, k) times
    the weight of slot k from column n's scores. -/
theorem out3_apply (X : Vec Ideal S1x512x256 .f32) (W : Vec Ideal S2000x512 .bf16) (WT : Vec Ideal S512x2000 .bf16)
    (c : Fin 512) (n : Fin 256) :
    out0_3 (F := Ideal) X W WT (ix3 (0 : Fin 1) c n) = ∑ k : Fin 2000, WT (ix2 c k) * weight (colScore X W n) k := by
  unfold out0_3
  rw [View.canon_unit_zero zero3]
  simp only [View.ld_unit_zero (S := S1x512x256) zero3, View.ld_unit_zero (S := S2000x512) zero2,
    View.ld_unit_zero (S := S512x2000) zero2]
  show (shapeCast S1x512x256 (matmul dot_S512x2000_S2000x256_S512x256_1_0_0_1_n_n none
      (shapeCast S512x2000 WT shapeCasts_S512x2000_S512x2000 : FVec Ideal S512x2000 .bf16)
      (truncf .bf16 (k0_pay2 X W) bitsLt_bf16_f32)
      (constant S512x256 .f32 0x00000000#32)) shapeCasts_S512x256_S1x512x256 : FVec Ideal S1x512x256 .f32) (ix3 (0 : Fin 1) c n) = _
  rw [shapeCast_ab_1ab_apply]
  refine (Cert.PlainMatmul.zero_acc_apply dot_S512x2000_S2000x256_S512x256_1_0_0_1_n_n_wf none _ _ c n).trans ?_
  refine Finset.sum_congr rfl fun k _ => ?_
  rw [shapeCast_self, truncf_apply, pay2_apply]

end Cert.MemKern

end
-- ==== Proof.KernArrCol.lean ====
/-
  From a block's entries to the specification's entries, over plain variables.

  Suppose a [1, 512, 256] block X agrees, on its column n, with the tokens x at token (b, h, v) — X (0, c, n) = x (b, c, h, v)
  for every channel c —, a [2000, 512] array W agrees with the memory w, and a [512, 2000] array WT is w transposed.  Then
  the 2000 scores of column n of the block are the scores of that token, so the weights' buffer at (0, k, n) holds the
  addressing weight of the token on slot k, and the read-out's buffer at (0, c, n) holds channel c of its read-out.  The
  token is named through an entry i of the flat result array: b = i 0, h = (i 2) / 32, v = (i 2) % 32, and the middle
  coordinate i 1 is the slot, or the channel.
-/
import proofs.«146242_j78572131713360_1_alg».proof.Proof.KernPay
import proofs.«146242_j78572131713360_1_alg».proof.Proof.KernArrSpec
import Idealize.ShloMosaic.Lib.ValueIdx

noncomputable section

open scoped BigOperators

namespace Cert.MemArr

open Idealize.ShloMosaic Idealize.ShloMosaic.ValueIdx Cert.KernelIdeal Cert.KernelIdeal.Gen

/-- The scores of a column that agrees with a token are the token's scores. -/
theorem colScore_eq (X : Vec Ideal S1x512x256 .f32) (W : Vec Ideal S2000x512 .bf16)
    (x : S32x512x32x32.Idx → EReal) (w : S2000x512.Idx → EReal) (b h v : Fin 32) (n : Fin 256)
    (hX : ∀ cc : Fin 512, X (ix3 (0 : Fin 1) cc n) = x (ix4 b cc h v))
    (hW : ∀ y : S2000x512.Idx, W y = w y) :
    Cert.MemKern.colScore X W n = Cert.MemSpec.score x w b h v := by
  funext k
  unfold Cert.MemKern.colScore Cert.MemSpec.score
  exact Finset.sum_congr rfl fun cc _ => by rw [hW, hX]

/-- The weights' buffer at (0, k, n) is the flat weights' entry i, when column n is the token of i and k its slot. -/
theorem weights_of_blocks (X : Vec Ideal S1x512x256 .f32) (W : Vec Ideal S2000x512 .bf16) (WT : Vec Ideal S512x2000 .bf16)
    (x : S32x512x32x32.Idx → EReal) (w : S2000x512.Idx → EReal) (k : Fin 2000) (n : Fin 256) (i : S32x2000x1024.Idx)
    (hX : ∀ (cc : Fin 512) (q : S32x512x32x32.Idx), (q 0).val = (i 0).val → (q 1).val = cc.val →
      (q 2).val = (i 2).val / 32 → (q 3).val = (i 2).val % 32 → X (ix3 (0 : Fin 1) cc n) = x q)
    (hW : ∀ y : S2000x512.Idx, W y = w y) (p1 : (i 1).val = k.val) :
    out0_4 (F := Ideal) X W WT (ix3 (0 : Fin 1) k n) = attFlat x w i := by
  refine (Cert.MemKern.out4_apply X W WT k n).trans ?_
  unfold attFlat Cert.MemSpec.att
  have hk : (⟨(i 1).val, (i 1).isLt⟩ : Fin 2000) = k := Fin.ext p1
  rw [hk]
  refine congrArg (fun s => Cert.MemSpec.weight s k) ?_
  exact colScore_eq X W x w _ _ _ n (fun cc => hX cc (ix4 _ cc _ _) rfl rfl rfl rfl) hW

/-- The read-out's buffer at (0, c, n) is the flat read-out's entry i, when column n is the token of i and c its channel. -/
theorem readout_of_blocks (X : Vec Ideal S1x512x256 .f32) (W : Vec Ideal S2000x512 .bf16) (WT : Vec Ideal S512x2000 .bf16)
    (x : S32x512x32x32.Idx → EReal) (w : S2000x512.Idx → EReal) (cc : Fin 512) (n : Fin 256) (i : S32x512x1024.Idx)
    (hX : ∀ (c' : Fin 512) (q : S32x512x32x32.Idx), (q 0).val = (i 0).val → (q 1).val = c'.val →
      (q 2).val = (i 2).val / 32 → (q 3).val = (i 2).val % 32 → X (ix3 (0 : Fin 1) c' n) = x q)
    (hW : ∀ y : S2000x512.Idx, W y = w y)
    (hWT : ∀ (c' : Fin 512) (k : Fin 2000), WT (ix2 c' k) = w (ix2 k c')) (p1 : (i 1).val = cc.val) :
    out0_3 (F := Ideal) X W WT (ix3 (0 : Fin 1) cc n) = readFlat x w i := by
  refine (Cert.MemKern.out3_apply X W WT cc n).trans ?_
  unfold readFlat Cert.MemSpec.readout
  have hc : (⟨(i 1).val, (i 1).isLt⟩ : Fin 512) = cc := Fin.ext p1
  rw [hc]
  have hs := colScore_eq X W x w ⟨(i 0).val, (i 0).isLt⟩
    ⟨(i 2).val / 32, by have h : (i 2).val < 1024 := (i 2).isLt; omega⟩ ⟨(i 2).val % 32, Nat.mod_lt _ (by decide)⟩ n
    (fun c' => hX c' (ix4 _ c' _ _) rfl rfl rfl rfl) hW
  rw [hs]
  exact Finset.sum_congr rfl fun k _ => by rw [hWT]

end Cert.MemArr

end
-- ==== Proof.KernArrWeights.lean ====
/-
  The weights' array after the run.

  The weights leave the region as [32, 2000, 1024], written back in blocks [1, 2000, 256] at block index (t / 4, 0, t % 4)
  of grid point t.  Each block is the matching block of one function of the two arguments — entry (b, k, p) is the
  addressing weight of token (b, p / 32, p % 32) on slot k — and the 128 blocks cover the array, so the array ends
  holding that function.
-/
import proofs.«146242_j78572131713360_1_alg».proof.Proof.Gen.KernelIdeal.Frame
import proofs.«146242_j78572131713360_1_alg».proof.Proof.KernArrSpec
import proofs.«146242_j78572131713360_1_alg».proof.Proof.KernArrIn
import proofs.«146242_j78572131713360_1_alg».proof.Proof.KernArrCol
import Idealize.ShloMosaic.Lib.Pipeline.Value
import Idealize.ShloMosaic.Lib.ValueLayout
import Idealize.ShloMosaic.Lib.ValueIdx
import Idealize.ShloMosaic.Lib.Tactic

noncomputable section

open scoped BigOperators

namespace Cert.MemArr

open Idealize.ShloMosaic Idealize.ShloMosaic.TcCoe Idealize.ShloMosaic.ValueIdx Idealize.ShloMosaic.Tactic Idealize.SL.Sem
open Cert.KernelIdeal Cert.KernelIdeal.Gen
open Idealize.ShloMosaic.Pipeline (Dat)

variable (m : (ℓ : Loc nD τ sig) → Buf (Elt Ideal) ℓ)

/-- What grid point t writes back to the weights' array is block t of the flat weights: the body leaves, at (0, r, n), the
    entry of the token that column n of the tokens' block at t carries, and the block's (0, r, n) sits in the array at
    (t / 4, r, (t % 4) · 256 + n), whose token is the same one. -/
theorem weights_flushed (c : Dev nD) (t : Fin cfg0.N) :
    (dats m 0 c).flushed 4 t = ((cfg0.win 4).blk t).view.read (Elt Ideal)
      (attFlat (m ((c : Thread nD τ).loc main_arg0)) (m ((c : Thread nD τ).loc main_arg1))) := by
  show (cfg0.win 4).cut (grid0.coords t) ((dats m 0 c).after 4 t) = _
  rw [after0_4]
  funext j
  show out0_4 (F := Ideal) (iblk m c 0 t) (iblk m c 1 t) (iblk m c 2 t) (j : S1x2000x256.Idx)
    = attFlat (m ((c : Thread nD τ).loc main_arg0)) (m ((c : Thread nD τ).loc main_arg1)) (((cfg0.win 4).blk t).view.emb j)
  obtain ⟨-, -, -, -, -, -, -, -, -, -, e0, e1, e2⟩ := index_facts t
  have hj : (j : S1x2000x256.Idx) = ix3 ((j : S1x2000x256.Idx) 0) ((j : S1x2000x256.Idx) 1) ((j : S1x2000x256.Idx) 2) := eq_ix3 (n0 := 1) (n1 := 2000) (n2 := 256) j
  have hz : ((j : S1x2000x256.Idx) 0) = (0 : Fin 1) := Fin.ext (by
    have h : ((j : S1x2000x256.Idx) 0).val < 1 := ((j : S1x2000x256.Idx) 0).isLt
    show ((j : S1x2000x256.Idx) 0).val = 0
    omega)
  have hjk : (j : S1x2000x256.Idx) = ix3 (0 : Fin 1) ((j : S1x2000x256.Idx) 1) ((j : S1x2000x256.Idx) 2) :=
    hj.trans (congrArg (fun z : Fin 1 => ix3 z ((j : S1x2000x256.Idx) 1) ((j : S1x2000x256.Idx) 2)) hz)
  have p0 : ((((cfg0.win 4).blk t).view.emb j : S32x2000x1024.Idx) 0).val = t.val / 4 := by
    show win0_4.index t (0 : Fin 3) * 1 + 1 * ((j : S1x2000x256.Idx) 0).val = t.val / 4
    have h : ((j : S1x2000x256.Idx) 0).val < 1 := ((j : S1x2000x256.Idx) 0).isLt
    omega
  have p1 : ((((cfg0.win 4).blk t).view.emb j : S32x2000x1024.Idx) 1).val = ((j : S1x2000x256.Idx) 1).val := by
    show win0_4.index t (1 : Fin 3) * 2000 + 1 * ((j : S1x2000x256.Idx) 1).val = ((j : S1x2000x256.Idx) 1).val
    omega
  have p2 : ((((cfg0.win 4).blk t).view.emb j : S32x2000x1024.Idx) 2).val = t.val % 4 * 256 + ((j : S1x2000x256.Idx) 2).val := by
    show win0_4.index t (2 : Fin 3) * 256 + 1 * ((j : S1x2000x256.Idx) 2).val = t.val % 4 * 256 + ((j : S1x2000x256.Idx) 2).val
    omega
  refine (congrArg (out0_4 (F := Ideal) (iblk m c 0 t) (iblk m c 1 t) (iblk m c 2 t)) hjk).trans ?_
  refine weights_of_blocks (iblk m c 0 t) (iblk m c 1 t) (iblk m c 2 t) _ _ ((j : S1x2000x256.Idx) 1) ((j : S1x2000x256.Idx) 2) _ ?_ ?_ p1
  · intro cc q q0 q1 q2 q3
    refine (tokens_block m c t (ix3 (0 : Fin 1) cc ((j : S1x2000x256.Idx) 2))
      (ix3 (⟨t.val / 4, by have := lt_of_lt_of_eq t.isLt N_0; omega⟩ : Fin 32) cc
        (⟨t.val % 4 * 256 + ((j : S1x2000x256.Idx) 2).val, by have h : ((j : S1x2000x256.Idx) 2).val < 256 := ((j : S1x2000x256.Idx) 2).isLt; omega⟩ : Fin 1024))
      rfl rfl rfl).trans ?_
    refine tokens_apply m c _ q ?_ ?_ ?_ ?_
    · show (q 0).val = t.val / 4; omega
    · show (q 1).val = cc.val; omega
    · show (q 2).val = (t.val % 4 * 256 + ((j : S1x2000x256.Idx) 2).val) / 32; omega
    · show (q 3).val = (t.val % 4 * 256 + ((j : S1x2000x256.Idx) 2).val) % 32; omega
  · exact fun y => (memory_block m c t y).trans (memory_apply m c y)

/-- An entry of the array is in point t's block iff each coordinate is in the block's range on its axis. -/
theorem mem_weights_block (t : Fin cfg0.N) (i : S32x2000x1024.Idx) :
    i ∈ ((cfg0.win 4).blk t).view.set ↔ ∀ a : Fin 3, win0_4.index t a * S1x2000x256.size a ≤ (i a).val
      ∧ (i a).val < win0_4.index t a * S1x2000x256.size a + S1x2000x256.size a := by
  show i ∈ ((View.whole main_v4_1).slice (win0_4.rect t)).set ↔ _
  rw [View.set_slice_whole, Rect.mem_set_unit]
  exact Iff.rfl

/-- Every entry (b, r, p) of the array is in some point's block: the point b · 4 + p / 256. -/
theorem weights_cover (i : S32x2000x1024.Idx) :
    ∃ t : Fin cfg0.N, (cfg0.win 4).flush t = true ∧ i ∈ ((cfg0.win 4).blk t).view.set := by
  have h0 : (i 0).val < 32 := (i 0).isLt
  have h1 : (i 1).val < 2000 := (i 1).isLt
  have h2 : (i 2).val < 1024 := (i 2).isLt
  obtain ⟨t, tv⟩ : ∃ t : Fin cfg0.N, t.val = (i 0).val * 4 + (i 2).val / 256 :=
    ⟨⟨(i 0).val * 4 + (i 2).val / 256, lt_of_lt_of_eq (by omega : (i 0).val * 4 + (i 2).val / 256 < 128) N_0.symm⟩, rfl⟩
  obtain ⟨-, -, -, -, -, -, -, -, -, -, e0, e1, e2⟩ := index_facts t
  refine ⟨t, flush0_4 t, ?_⟩
  rw [mem_weights_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2000 ≤ (i 1).val ∧ (i 1).val < win0_4.index t (1 : Fin 3) * 2000 + 2000; omega
  | ⟨2, _⟩ => show win0_4.index t (2 : Fin 3) * 256 ≤ (i 2).val ∧ (i 2).val < win0_4.index t (2 : Fin 3) * 256 + 256; omega

/-- The weights' array after the run is the flat weights of the two arguments. -/
theorem final_weights (c : Dev nD) :
    (dats m 0 c).arrAt 4 cfg0.N
      = attFlat (m ((c : Thread nD τ).loc main_arg0)) (m ((c : Thread nD τ).loc main_arg1)) :=
  (dats m 0 c).arrAt_eq_of_cover 4 _ (fun t _ => weights_flushed m c t) weights_cover

end Cert.MemArr

end
-- ==== Proof.KernArrReadout.lean ====
/-
  The read-out's array after the run.

  The read-out leaves the region as [32, 512, 1024], written back in blocks [1, 512, 256] at block index (t / 4, 0, t % 4)
  of grid point t.  Each block is the matching block of one function of the two arguments — entry (b, c, p) is channel c
  of the read-out of token (b, p / 32, p % 32) — and the 128 blocks cover the array, so the array ends holding that
  function.
-/
import proofs.«146242_j78572131713360_1_alg».proof.Proof.Gen.KernelIdeal.Frame
import proofs.«146242_j78572131713360_1_alg».proof.Proof.KernArrSpec
import proofs.«146242_j78572131713360_1_alg».proof.Proof.KernArrIn
import proofs.«146242_j78572131713360_1_alg».proof.Proof.KernArrCol
import Idealize.ShloMosaic.Lib.Pipeline.Value
import Idealize.ShloMosaic.Lib.ValueLayout
import Idealize.ShloMosaic.Lib.ValueIdx
import Idealize.ShloMosaic.Lib.Tactic

noncomputable section

open scoped BigOperators

namespace Cert.MemArr

open Idealize.ShloMosaic Idealize.ShloMosaic.TcCoe Idealize.ShloMosaic.ValueIdx Idealize.ShloMosaic.Tactic Idealize.SL.Sem
open Cert.KernelIdeal Cert.KernelIdeal.Gen
open Idealize.ShloMosaic.Pipeline (Dat)

variable (m : (ℓ : Loc nD τ sig) → Buf (Elt Ideal) ℓ)

/-- What grid point t writes back to the read-out's array is block t of the flat read-out: the body leaves, at (0, r, n),
    the entry of the token that column n of the tokens' block at t carries, and the block's (0, r, n) sits in the array at
    (t / 4, r, (t % 4) · 256 + n), whose token is the same one. -/
theorem readout_flushed (c : Dev nD) (t : Fin cfg0.N) :
    (dats m 0 c).flushed 3 t = ((cfg0.win 3).blk t).view.read (Elt Ideal)
      (readFlat (m ((c : Thread nD τ).loc main_arg0)) (m ((c : Thread nD τ).loc main_arg1))) := by
  show (cfg0.win 3).cut (grid0.coords t) ((dats m 0 c).after 3 t) = _
  rw [after0_3]
  funext j
  show out0_3 (F := Ideal) (iblk m c 0 t) (iblk m c 1 t) (iblk m c 2 t) (j : S1x512x256.Idx)
    = readFlat (m ((c : Thread nD τ).loc main_arg0)) (m ((c : Thread nD τ).loc main_arg1)) (((cfg0.win 3).blk t).view.emb j)
  obtain ⟨-, -, -, -, -, -, -, e0, e1, e2, -⟩ := index_facts t
  have hj : (j : S1x512x256.Idx) = ix3 ((j : S1x512x256.Idx) 0) ((j : S1x512x256.Idx) 1) ((j : S1x512x256.Idx) 2) := eq_ix3 (n0 := 1) (n1 := 512) (n2 := 256) j
  have hz : ((j : S1x512x256.Idx) 0) = (0 : Fin 1) := Fin.ext (by
    have h : ((j : S1x512x256.Idx) 0).val < 1 := ((j : S1x512x256.Idx) 0).isLt
    show ((j : S1x512x256.Idx) 0).val = 0
    omega)
  have hjk : (j : S1x512x256.Idx) = ix3 (0 : Fin 1) ((j : S1x512x256.Idx) 1) ((j : S1x512x256.Idx) 2) :=
    hj.trans (congrArg (fun z : Fin 1 => ix3 z ((j : S1x512x256.Idx) 1) ((j : S1x512x256.Idx) 2)) hz)
  have p0 : ((((cfg0.win 3).blk t).view.emb j : S32x512x1024.Idx) 0).val = t.val / 4 := by
    show win0_3.index t (0 : Fin 3) * 1 + 1 * ((j : S1x512x256.Idx) 0).val = t.val / 4
    have h : ((j : S1x512x256.Idx) 0).val < 1 := ((j : S1x512x256.Idx) 0).isLt
    omega
  have p1 : ((((cfg0.win 3).blk t).view.emb j : S32x512x1024.Idx) 1).val = ((j : S1x512x256.Idx) 1).val := by
    show win0_3.index t (1 : Fin 3) * 512 + 1 * ((j : S1x512x256.Idx) 1).val = ((j : S1x512x256.Idx) 1).val
    omega
  have p2 : ((((cfg0.win 3).blk t).view.emb j : S32x512x1024.Idx) 2).val = t.val % 4 * 256 + ((j : S1x512x256.Idx) 2).val := by
    show win0_3.index t (2 : Fin 3) * 256 + 1 * ((j : S1x512x256.Idx) 2).val = t.val % 4 * 256 + ((j : S1x512x256.Idx) 2).val
    omega
  refine (congrArg (out0_3 (F := Ideal) (iblk m c 0 t) (iblk m c 1 t) (iblk m c 2 t)) hjk).trans ?_
  refine readout_of_blocks (iblk m c 0 t) (iblk m c 1 t) (iblk m c 2 t) _ _ ((j : S1x512x256.Idx) 1) ((j : S1x512x256.Idx) 2) _ ?_ ?_ ?_ p1
  · intro cc q q0 q1 q2 q3
    refine (tokens_block m c t (ix3 (0 : Fin 1) cc ((j : S1x512x256.Idx) 2))
      (ix3 (⟨t.val / 4, by have := lt_of_lt_of_eq t.isLt N_0; omega⟩ : Fin 32) cc
        (⟨t.val % 4 * 256 + ((j : S1x512x256.Idx) 2).val, by have h : ((j : S1x512x256.Idx) 2).val < 256 := ((j : S1x512x256.Idx) 2).isLt; omega⟩ : Fin 1024))
      rfl rfl rfl).trans ?_
    refine tokens_apply m c _ q ?_ ?_ ?_ ?_
    · show (q 0).val = t.val / 4; omega
    · show (q 1).val = cc.val; omega
    · show (q 2).val = (t.val % 4 * 256 + ((j : S1x512x256.Idx) 2).val) / 32; omega
    · show (q 3).val = (t.val % 4 * 256 + ((j : S1x512x256.Idx) 2).val) % 32; omega
  · exact fun y => (memory_block m c t y).trans (memory_apply m c y)
  · exact fun c' k => (memoryT_block m c t (ix2 c' k)).trans (memoryT_apply m c c' k)

/-- An entry of the array is in point t's block iff each coordinate is in the block's range on its axis. -/
theorem mem_readout_block (t : Fin cfg0.N) (i : S32x512x1024.Idx) :
    i ∈ ((cfg0.win 3).blk t).view.set ↔ ∀ a : Fin 3, win0_3.index t a * S1x512x256.size a ≤ (i a).val
      ∧ (i a).val < win0_3.index t a * S1x512x256.size a + S1x512x256.size a := by
  show i ∈ ((View.whole main_v4_0).slice (win0_3.rect t)).set ↔ _
  rw [View.set_slice_whole, Rect.mem_set_unit]
  exact Iff.rfl

/-- Every entry (b, r, p) of the array is in some point's block: the point b · 4 + p / 256. -/
theorem readout_cover (i : S32x512x1024.Idx) :
    ∃ t : Fin cfg0.N, (cfg0.win 3).flush t = true ∧ i ∈ ((cfg0.win 3).blk t).view.set := by
  have h0 : (i 0).val < 32 := (i 0).isLt
  have h1 : (i 1).val < 512 := (i 1).isLt
  have h2 : (i 2).val < 1024 := (i 2).isLt
  obtain ⟨t, tv⟩ : ∃ t : Fin cfg0.N, t.val = (i 0).val * 4 + (i 2).val / 256 :=
    ⟨⟨(i 0).val * 4 + (i 2).val / 256, lt_of_lt_of_eq (by omega : (i 0).val * 4 + (i 2).val / 256 < 128) N_0.symm⟩, rfl⟩
  obtain ⟨-, -, -, -, -, -, -, e0, e1, e2, -⟩ := index_facts t
  refine ⟨t, flush0_3 t, ?_⟩
  rw [mem_readout_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 256 ≤ (i 2).val ∧ (i 2).val < win0_3.index t (2 : Fin 3) * 256 + 256; omega

/-- The read-out's array after the run is the flat read-out of the two arguments. -/
theorem final_readout (c : Dev nD) :
    (dats m 0 c).arrAt 3 cfg0.N
      = readFlat (m ((c : Thread nD τ).loc main_arg0)) (m ((c : Thread nD τ).loc main_arg1)) :=
  (dats m 0 c).arrAt_eq_of_cover 3 _ (fun t _ => readout_flushed m c t) readout_cover

end Cert.MemArr

end
-- ==== Proof.lean ====
/-
  The certificate's claim: the three programs run and leave their arguments unchanged, and the idealized kernel and
  the idealized reference, from memories that agree on the arguments, end with equal results on the extended reals.

  Both programs compute the memory-read layer of proof/Proof/Spec.lean: every token's 2000 scores against the memory
  rows, a softmax, a hard shrinkage and a renormalisation give the addressing weights (second result), and the
  weights against the memory's columns give the read-out (first result).  The kernel works on blocks of 256 tokens
  with the tokens along the columns, the reference on all 32768 tokens with the tokens along the rows; the two
  arrangements differ only in the order of the factors of each product, which commute on the extended reals, so no
  finiteness of the inputs is used.  The kernel's side: KernTail (the column-wise chain), KernPay (the body's two
  stores), KernArr* (the blocks as one array), KernHost (the last reshapes and the run).  The reference's side:
  RefRow, RefTok, RefSide over the program's read-at-an-index lemmas.
-/
import proofs.«146242_j78572131713360_1_alg».proof.Defs
import proofs.«146242_j78572131713360_1_alg».proof.Proof.Gen.Kernel
import proofs.«146242_j78572131713360_1_alg».proof.Proof.Gen.Kernel.Frame
import proofs.«146242_j78572131713360_1_alg».proof.Proof.Gen.KernelIdeal
import proofs.«146242_j78572131713360_1_alg».proof.Proof.Gen.KernelIdeal.Frame
import proofs.«146242_j78572131713360_1_alg».proof.Proof.Gen.ReferenceIdeal
import proofs.«146242_j78572131713360_1_alg».proof.Proof.Gen.Pre_finite_inputs
import proofs.«146242_j78572131713360_1_alg».proof.Proof.Gen.ReferenceIdeal.Run
import proofs.«146242_j78572131713360_1_alg».proof.Proof.Gen.ReferenceIdeal.Read
import proofs.«146242_j78572131713360_1_alg».proof.Proof.KernHost
import proofs.«146242_j78572131713360_1_alg».proof.Proof.RefSide
import proofs.«146242_j78572131713360_1_alg».proof.Proof.KernArrWeights
import proofs.«146242_j78572131713360_1_alg».proof.Proof.KernArrReadout
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote nothing. -/
theorem preserves : Cert.preserves_Kernel_KernelIdeal := trivial

/-- Both programs end with the specification's read-out and weights of the arguments. -/
theorem algebraic : Cert.algebraic_KernelIdeal_ReferenceIdeal := by
  intro m ρ m' ρ' _ hagree
  refine ⟨_, _, Cert.MemKern.kernel_run_of m ρ (Cert.MemArr.final_weights m) (Cert.MemArr.final_readout m), ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v32_eq, Cert.MemRef.ref_readout, (hagree c).1, (hagree c).2]
  · rw [(h c).2.1, Cert.ReferenceIdeal.Read.val_main_v34_eq, Cert.MemRef.ref_weights, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
